-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x2048 : Shape := ⟨2, ![2048, 2048]⟩
abbrev S2048x2560 : Shape := ⟨2, ![2048, 2560]⟩
abbrev S2048 : Shape := ⟨1, ![2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x2560 : S_.BroadcastsInDim S2048x2560 (![] : Fin 0 → Fin S2048x2560.rank)
  reducesTo_S2048x2560_S_d0_1 : S2048x2560.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048x2560 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2560 .f32 := Host.absf main_arg11
  let main_cst_20 : FVec F S_ .f32 := constant S_ .f32 0x7F800000#32
  let main_v55 : FVec F S2048x2560 .f32 := broadcastInDim S2048x2560 ![] bcast_S_S2048x2560 main_cst_20
  let main_v56 : IVec S2048x2560 1 := cmpf .olt main_v54 main_v55
  let main_c_21 : IVec S_ 1 := constantI S_ 1 1#1
  let main_v57 : IVec S_ 1 := (fun x v => Host.reduce IntOp.andi x v reducesTo_S2048x2560_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S2048x2560 .f32) (main_arg8 : FVec F S2048 .f32) (main_arg9 : FVec F S2048x2560 .f32) (main_arg10 : FVec F S2048 .f32) (main_arg11 : FVec F S2048x2560 .f32) (main_arg12 : FVec F S2048 .f32) (main_v33 : IVec S_ 1) : IVec S_ 1 :=
  let main_v34 : FVec F S2048x2560 .f32 := Host.absf main_arg7
  let main_cst_12 : FVec F S_ .f32 := constant S_ .f32 0x7F800000#32
  let main_v35 : FVec F S2048x2560 .f32 := broadcastInDim S2048x2560 ![] bcast_S_S2048x2560 main_cst_12
  let main_v36 : IVec S2048x2560 1 := cmpf .olt main_v34 main_v35
  let main_c_13 : IVec S_ 1 := constantI S_ 1 1#1
  let main_v37 : IVec S_ 1 := (fun x v => Host.reduce IntOp.andi x v reducesTo_S2048x2560_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2560 .f32 := Host.absf main_arg9
  let main_cst_16 : FVec F S_ .f32 := constant S_ .f32 0x7F800000#32
  let main_v45 : FVec F S2048x2560 .f32 := broadcastInDim S2048x2560 ![] bcast_S_S2048x2560 main_cst_16
  let main_v46 : IVec S2048x2560 1 := cmpf .olt main_v44 main_v45
  let main_c_17 : IVec S_ 1 := constantI S_ 1 1#1
  let main_v47 : IVec S_ 1 := (fun x v => Host.reduce IntOp.andi x v reducesTo_S2048x2560_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S2048x2560 .f32) (main_arg6 : FVec F S2048 .f32) (main_arg7 : FVec F S2048x2560 .f32) (main_arg8 : FVec F S2048 .f32) (main_arg9 : FVec F S2048x2560 .f32) (main_arg10 : FVec F S2048 .f32) (main_arg11 : FVec F S2048x2560 .f32) (main_arg12 : FVec F S2048 .f32) (main_v13 : IVec S_ 1) (main_v16 : IVec S2048x2560 1) : IVec S_ 1 :=
  let main_c_5 : IVec S_ 1 := constantI S_ 1 1#1
  let main_v17 : IVec S_ 1 := (fun x v => Host.reduce IntOp.andi x v reducesTo_S2048x2560_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2560 .f32 := Host.absf main_arg5
  let main_cst_8 : FVec F S_ .f32 := constant S_ .f32 0x7F800000#32
  let main_v25 : FVec F S2048x2560 .f32 := broadcastInDim S2048x2560 ![] bcast_S_S2048x2560 main_cst_8
  let main_v26 : IVec S2048x2560 1 := cmpf .olt main_v24 main_v25
  let main_c_9 : IVec S_ 1 := constantI S_ 1 1#1
  let main_v27 : IVec S_ 1 := (fun x v => Host.reduce IntOp.andi x v reducesTo_S2048x2560_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x512 .f32) (main_arg1 : FVec F S2048x2048 .f32) (main_arg2 : FVec F S2048x2560 .f32) (main_arg3 : FVec F S2048x2560 .f32) (main_arg4 : FVec F S2048 .f32) (main_arg5 : FVec F S2048x2560 .f32) (main_arg6 : FVec F S2048 .f32) (main_arg7 : FVec F S2048x2560 .f32) (main_arg8 : FVec F S2048 .f32) (main_arg9 : FVec F S2048x2560 .f32) (main_arg10 : FVec F S2048 .f32) (main_arg11 : FVec F S2048x2560 .f32) (main_arg12 : FVec F S2048 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2560 .f32 := Host.absf main_arg2
  let main_cst_2 : FVec F S_ .f32 := constant S_ .f32 0x7F800000#32
  let main_v10 : FVec F S2048x2560 .f32 := broadcastInDim S2048x2560 ![] bcast_S_S2048x2560 main_cst_2
  let main_v11 : IVec S2048x2560 1 := cmpf .olt main_v9 main_v10
  let main_c_3 : IVec S_ 1 := constantI S_ 1 1#1
  let main_v12 : IVec S_ 1 := (fun x v => Host.reduce IntOp.andi x v reducesTo_S2048x2560_S_d0_1 h_S_) main_v11 main_c_3
  let main_v13 : IVec S_ 1 := andi main_v8 main_v12
  let main_v14 : FVec F S2048x2560 .f32 := Host.absf main_arg3
  let main_cst_4 : FVec F S_ .f32 := constant S_ .f32 0x7F800000#32
  let main_v15 : FVec F S2048x2560 .f32 := broadcastInDim S2048x2560 ![] bcast_S_S2048x2560 main_cst_4
  let main_v16 : IVec S2048x2560 1 := cmpf .olt main_v14 main_v15
  fn_part1 (F := F) main_arg4 main_arg5 main_arg6 main_arg7 main_arg8 main_arg9 main_arg10 main_arg11 main_arg12 main_v13 main_v16
-- ==== Kernel.lean ====
abbrev S2048x512 : Shape := ⟨2, ![2048, 512]⟩
abbrev S2048x2048 : Shape := ⟨2, ![2048, 2048]⟩
abbrev S2048x2560 : Shape := ⟨2, ![2048, 2560]⟩
abbrev S2048 : Shape := ⟨1, ![2048]⟩
abbrev S1x2048 : Shape := ⟨2, ![1, 2048]⟩
abbrev S256x2560 : Shape := ⟨2, ![256, 2560]⟩
abbrev S1x256 : Shape := ⟨2, ![1, 256]⟩
abbrev S2048x256 : Shape := ⟨2, ![2048, 256]⟩
abbrev S256x256 : Shape := ⟨2, ![256, 256]⟩

abbrev nBuf : Space → Nat
  | .hbm => 28
  | .vmem => 27
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2560, .f32⟩
  | .hbm, ⟨3, _⟩ => ⟨S2048x2560, .f32⟩
  | .hbm, ⟨4, _⟩ => ⟨S2048, .f32⟩
  | .hbm, ⟨5, _⟩ => ⟨S2048x2560, .f32⟩
  | .hbm, ⟨6, _⟩ => ⟨S2048, .f32⟩
  | .hbm, ⟨7, _⟩ => ⟨S2048x2560, .f32⟩
  | .hbm, ⟨8, _⟩ => ⟨S2048, .f32⟩
  | .hbm, ⟨9, _⟩ => ⟨S2048x2560, .f32⟩
  | .hbm, ⟨10, _⟩ => ⟨S2048, .f32⟩
  | .hbm, ⟨11, _⟩ => ⟨S2048x2560, .f32⟩
  | .hbm, ⟨12, _⟩ => ⟨S2048, .f32⟩
  | .hbm, ⟨13, _⟩ => ⟨S2048x2560, .f32⟩
  | .hbm, ⟨14, _⟩ => ⟨S2048x2560, .bf16⟩
  | .hbm, ⟨15, _⟩ => ⟨S2048x2560, .bf16⟩
  | .hbm, ⟨16, _⟩ => ⟨S2048x2560, .bf16⟩
  | .hbm, ⟨17, _⟩ => ⟨S2048x2560, .bf16⟩
  | .hbm, ⟨18, _⟩ => ⟨S2048x2560, .bf16⟩
  | .hbm, ⟨19, _⟩ => ⟨S2048x2560, .bf16⟩
  | .hbm, ⟨20, _⟩ => ⟨S2048x2560, .bf16⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S2048x2048, .f32⟩
  | .hbm, ⟨27, _⟩ => ⟨S2048x2048, .f32⟩
  | .local _ .vmem, ⟨0, _⟩ => ⟨S2048x2560, .bf16⟩
  | .local _ .vmem, ⟨1, _⟩ => ⟨S256x2560, .bf16⟩
  | .local _ .vmem, ⟨2, _⟩ => ⟨S256x2560, .bf16⟩
  | .local _ .vmem, ⟨3, _⟩ => ⟨S256x2560, .bf16⟩
  | .local _ .vmem, ⟨4, _⟩ => ⟨S256x2560, .bf16⟩
  | .local _ .vmem, ⟨5, _⟩ => ⟨S1x256, .f32⟩
  | .local _ .vmem, ⟨6, _⟩ => ⟨S1x256, .f32⟩
  | .local _ .vmem, ⟨7, _⟩ => ⟨S256x2560, .bf16⟩
  | .local _ .vmem, ⟨8, _⟩ => ⟨S256x2560, .bf16⟩
  | .local _ .vmem, ⟨9, _⟩ => ⟨S1x256, .f32⟩
  | .local _ .vmem, ⟨10, _⟩ => ⟨S1x256, .f32⟩
  | .local _ .vmem, ⟨11, _⟩ => ⟨S256x2560, .bf16⟩
  | .local _ .vmem, ⟨12, _⟩ => ⟨S256x2560, .bf16⟩
  | .local _ .vmem, ⟨13, _⟩ => ⟨S1x256, .f32⟩
  | .local _ .vmem, ⟨14, _⟩ => ⟨S1x256, .f32⟩
  | .local _ .vmem, ⟨15, _⟩ => ⟨S256x2560, .bf16⟩
  | .local _ .vmem, ⟨16, _⟩ => ⟨S256x2560, .bf16⟩
  | .local _ .vmem, ⟨17, _⟩ => ⟨S1x256, .f32⟩
  | .local _ .vmem, ⟨18, _⟩ => ⟨S1x256, .f32⟩
  | .local _ .vmem, ⟨19, _⟩ => ⟨S256x2560, .bf16⟩
  | .local _ .vmem, ⟨20, _⟩ => ⟨S256x2560, .bf16⟩
  | .local _ .vmem, ⟨21, _⟩ => ⟨S1x256, .f32⟩
  | .local _ .vmem, ⟨22, _⟩ => ⟨S1x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v3 : BitVec 32 := Scalar.muli arg15 c256_i32
  v3
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v3 : BitVec 32 := Scalar.muli arg15 c256_i32
  let v4 : BitVec 32 := v3
  let v5 : Index := Scalar.indexCast v4
  let c0_2 : Index := 0#32
  ![v5.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v3 : BitVec 32 := Scalar.muli arg15 c256_i32
  let v4 : BitVec 32 := v3
  let v55 : Index := Scalar.indexCast v4
  let c0_27 : Index := 0#32
  ![v55.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S2048x512_S2048x2048_S2048x2560_d1 : Shape.Concatenates [S2048x512, S2048x2048] S2048x2560 1
  bitsLt_bf16_f32 : FTy.bits .bf16 < FTy.bits .f32
  shapeCasts_S2048_S1x2048 : S2048.ShapeCasts S1x2048
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  h_S256x256 : 0 < S256x256.numel
  dot_S256x2560_S256x2560_S256x256_1_1_0_0_n_n_wf : DotDims.WF S256x2560 S256x2560 S256x256 [1] [1] [0] [0] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x2560.size a ≤ S2048x2560.size a
  k0_off2_inb : ∀ k0_t1 : Fin k0_t1_loop.trips, ∀ a, (k0_off2 k0_t1) a + S256x256.size a ≤ S2048x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2560.size a ≤ S2048x2560.size a
  hwx0_0 : ∀ i : grid0.Coords, EltTy.bits .bf16 = 32 ∨ (Rect.block (s := S2048x2560) S2048x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2560.size a ≤ S2048x2560.size a
  hwx0_1 : ∀ i : grid0.Coords, EltTy.bits .bf16 = 32 ∨ (Rect.block (s := S2048x2560) S256x2560.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2560.size a ≤ S2048x2560.size a
  hwx0_2 : ∀ i : grid0.Coords, EltTy.bits .bf16 = 32 ∨ (Rect.block (s := S2048x2560) S256x2560.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .f32 = 32 ∨ (Rect.block (s := S1x2048) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2560.size a ≤ S2048x2560.size a
  hwx0_4 : ∀ i : grid0.Coords, EltTy.bits .bf16 = 32 ∨ (Rect.block (s := S2048x2560) S256x2560.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2560.size a ≤ S2048x2560.size a
  hwx0_6 : ∀ i : grid0.Coords, EltTy.bits .bf16 = 32 ∨ (Rect.block (s := S2048x2560) S256x2560.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2560.size a ≤ S2048x2560.size a
  hwx0_8 : ∀ i : grid0.Coords, EltTy.bits .bf16 = 32 ∨ (Rect.block (s := S2048x2560) S256x2560.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x2048.size a
  hwx0_9 : ∀ i : grid0.Coords, EltTy.bits .f32 = 32 ∨ (Rect.block (s := S1x2048) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2560.size a ≤ S2048x2560.size a
  hwx0_10 : ∀ i : grid0.Coords, EltTy.bits .bf16 = 32 ∨ (Rect.block (s := S2048x2560) S256x2560.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S2048x2048.size a
  hwx0_12 : ∀ i : grid0.Coords, EltTy.bits .f32 = 32 ∨ (Rect.block (s := S2048x2048) S2048x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x256.size a ≤ S2048x2048.size a
  hwx0_13 : ∀ i : grid0.Coords, EltTy.bits .f32 = 32 ∨ (Rect.block (s := S2048x2048) S2048x256.size (cc0_transform_13 i) (hinb0_13 i)).WholeWords (EltTy.packing .f32)

variable [Facts₀]

def dot_S256x2560_S256x2560_S256x256_1_1_0_0_n_n : DotDims S256x2560 S256x2560 S256x256 where
  lhsContracting := [1]
  rhsContracting := [1]
  lhsNonContracting := [0]
  rhsNonContracting := [0]
  lhsBatch := []
  rhsBatch := []
  wf := dot_S256x2560_S256x2560_S256x256_1_1_0_0_n_n_wf

abbrev win0_0 : Pipeline.Window sig grid0 :=
  Pipeline.Window.ofSpec (Memref.whole main_v1) S2048x2560.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x2560.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x2560.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2560.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S256x2560.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x2560.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13_0) S2048x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13_1) S2048x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x2048 : Shape := ⟨2, ![2048, 2048]⟩
abbrev S2048x2560 : Shape := ⟨2, ![2048, 2560]⟩
abbrev S2048 : Shape := ⟨1, ![2048]⟩
abbrev S1x2048x2560 : Shape := ⟨3, ![1, 2048, 2560]⟩
abbrev S5x2048x2560 : Shape := ⟨3, ![5, 2048, 2560]⟩
abbrev S1x2048 : Shape := ⟨2, ![1, 2048]⟩
abbrev S5x2048 : Shape := ⟨2, ![5, 2048]⟩
abbrev S5x2048x2048 : Shape := ⟨3, ![5, 2048, 2048]⟩
abbrev S5x1x2048 : Shape := ⟨3, ![5, 1, 2048]⟩
abbrev S1x2048x2048 : Shape := ⟨3, ![1, 2048, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2560, .f32⟩
  | .hbm, ⟨3, _⟩ => ⟨S2048x2560, .f32⟩
  | .hbm, ⟨4, _⟩ => ⟨S2048, .f32⟩
  | .hbm, ⟨5, _⟩ => ⟨S2048x2560, .f32⟩
  | .hbm, ⟨6, _⟩ => ⟨S2048, .f32⟩
  | .hbm, ⟨7, _⟩ => ⟨S2048x2560, .f32⟩
  | .hbm, ⟨8, _⟩ => ⟨S2048, .f32⟩
  | .hbm, ⟨9, _⟩ => ⟨S2048x2560, .f32⟩
  | .hbm, ⟨10, _⟩ => ⟨S2048, .f32⟩
  | .hbm, ⟨11, _⟩ => ⟨S2048x2560, .f32⟩
  | .hbm, ⟨12, _⟩ => ⟨S2048, .f32⟩
  | .hbm, ⟨13, _⟩ => ⟨S2048x2560, .f32⟩
  | .hbm, ⟨14, _⟩ => ⟨S1x2048x2560, .f32⟩
  | .hbm, ⟨15, _⟩ => ⟨S1x2048x2560, .f32⟩
  | .hbm, ⟨16, _⟩ => ⟨S1x2048x2560, .f32⟩
  | .hbm, ⟨17, _⟩ => ⟨S1x2048x2560, .f32⟩
  | .hbm, ⟨18, _⟩ => ⟨S1x2048x2560, .f32⟩
  | .hbm, ⟨19, _⟩ => ⟨S5x2048x2560, .f32⟩
  | .hbm, ⟨20, _⟩ => ⟨S1x2048x2560, .f32⟩
  | .hbm, ⟨21, _⟩ => ⟨S5x2048x2560, .f32⟩
  | .hbm, ⟨22, _⟩ => ⟨S5x2048x2560, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S5x2048, .f32⟩
  | .hbm, ⟨29, _⟩ => ⟨S5x2048x2048, .f32⟩
  | .hbm, ⟨30, _⟩ => ⟨S5x2048x2048, .f32⟩
  | .hbm, ⟨31, _⟩ => ⟨S5x1x2048, .f32⟩
  | .hbm, ⟨32, _⟩ => ⟨S5x2048x2048, .f32⟩
  | .hbm, ⟨33, _⟩ => ⟨S5x2048x2048, .f32⟩
  | .hbm, ⟨34, _⟩ => ⟨S1x2048x2048, .f32⟩
  | .hbm, ⟨35, _⟩ => ⟨S2048x2048, .f32⟩
  | .hbm, ⟨36, _⟩ => ⟨S1x2048x2048, .f32⟩
  | .hbm, ⟨37, _⟩ => ⟨S2048x2048, .f32⟩
  | .hbm, ⟨38, _⟩ => ⟨S1x2048x2048, .f32⟩
  | .hbm, ⟨39, _⟩ => ⟨S2048x2048, .f32⟩
  | .hbm, ⟨40, _⟩ => ⟨S1x2048x2048, .f32⟩
  | .hbm, ⟨41, _⟩ => ⟨S2048x2048, .f32⟩
  | .hbm, ⟨42, _⟩ => ⟨S1x2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_cst_0 : Ref sig .tc := ⟨.hbm, 52, rfl⟩
abbrev main_v38 : Ref sig .tc := ⟨.hbm, 53, rfl⟩
abbrev main_v39 : Ref sig .tc := ⟨.hbm, 54, rfl⟩
abbrev main_cst_1 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  concatenates_S2048x512_S2048x2048_S2048x2560_d1 : Shape.Concatenates [S2048x512, S2048x2048] S2048x2560 1
  bcast_S2048x2560_S1x2048x2560_1_2 : S2048x2560.BroadcastsInDim S1x2048x2560 (![1, 2] : Fin 2 → Fin S1x2048x2560.rank)
  concatenates_S1x2048x2560_S1x2048x2560_S1x2048x2560_S1x2048x2560_S1x2048x2560_S5x2048x2560_d0 : Shape.Concatenates [S1x2048x2560, S1x2048x2560, S1x2048x2560, S1x2048x2560, S1x2048x2560] S5x2048x2560 0
  bcast_S1x2048x2560_S5x2048x2560_0_1_2 : S1x2048x2560.BroadcastsInDim S5x2048x2560 (![0, 1, 2] : Fin 3 → Fin S5x2048x2560.rank)
  bcast_S2048_S1x2048_1 : S2048.BroadcastsInDim S1x2048 (![1] : Fin 1 → Fin S1x2048.rank)
  concatenates_S1x2048_S1x2048_S1x2048_S1x2048_S1x2048_S5x2048_d0 : Shape.Concatenates [S1x2048, S1x2048, S1x2048, S1x2048, S1x2048] S5x2048 0
  transposes_S5x2048x2048_S5x2048x2048_0_2_1 : S5x2048x2048.Transposes [0, 2, 1] S5x2048x2048
  bcast_S5x2048_S5x1x2048_0_2 : S5x2048.BroadcastsInDim S5x1x2048 (![0, 2] : Fin 2 → Fin S5x1x2048.rank)
  bcast_S5x1x2048_S5x2048x2048_0_1_2 : S5x1x2048.BroadcastsInDim S5x2048x2048 (![0, 1, 2] : Fin 3 → Fin S5x2048x2048.rank)
  slices_S5x2048x2048_S1x2048x2048_0_0_0 : S5x2048x2048.Slices ![0, 0, 0] S1x2048x2048
  shapeCasts_S1x2048x2048_S2048x2048 : S1x2048x2048.ShapeCasts S2048x2048
  slices_S5x2048x2048_S1x2048x2048_1_0_0 : S5x2048x2048.Slices ![1, 0, 0] S1x2048x2048
  slices_S5x2048x2048_S1x2048x2048_2_0_0 : S5x2048x2048.Slices ![2, 0, 0] S1x2048x2048
  slices_S5x2048x2048_S1x2048x2048_3_0_0 : S5x2048x2048.Slices ![3, 0, 0] S1x2048x2048
  slices_S5x2048x2048_S1x2048x2048_4_0_0 : S5x2048x2048.Slices ![4, 0, 0] S1x2048x2048
  bcast_S_S2048x2048 : S_.BroadcastsInDim S2048x2048 (![] : Fin 0 → Fin S2048x2048.rank)
  dot_S5x2048x2560_S2048x2560_S5x2048x2048_2_1_01_0_n_n_wf : DotDims.WF S5x2048x2560 S2048x2560 S5x2048x2048 [2] [1] [0, 1] [0] [] []

variable [Facts₀]

def dot_S5x2048x2560_S2048x2560_S5x2048x2048_2_1_01_0_n_n : DotDims S5x2048x2560 S2048x2560 S5x2048x2048 where
  lhsContracting := [2]
  rhsContracting := [1]
  lhsNonContracting := [0, 1]
  rhsNonContracting := [0]
  lhsBatch := []
  rhsBatch := []
  wf := dot_S5x2048x2560_S2048x2560_S5x2048x2048_2_1_01_0_n_n_wf

class Facts : Prop extends Facts₀ where

variable [Facts]
-- ==== Proof.CellSpec.lean ====
/-
  The arithmetic of one step of the gated cell, on the extended reals, with no program in sight.

  Five linear maps share one input row u = [x | hidden] (2560 entries) and one 0/1-style mask k: for a weight row w
  and a bias c the masked linear is  Σ_h u h · (w h · k h) + c.  Three of them (g, h, p) are used as they are; the
  other two (fg, fh) only ever enter through their SUM, the gate's pre-activation s, and the step's results are

      new_hidden = tanh g · (1 − σ s) + σ s · tanh h,        y = p + new_hidden.

  The sum s can be formed in two ways. One adds the two weight rows and the two biases first and takes a single
  masked linear (`gateFused`); the other takes the two masked linears separately, each with the masked weight
  written in front of the input, and adds the results (`gateSplit`). On real numbers these agree, by distributing
  the product over the sum of the weights and splitting the sum over h in two. On the extended reals neither step
  is valid at an infinity, so the law `gateSplit_eq_gateFused` is stated for rows and biases whose entries are all
  real, and is proved by carrying the statement into ℝ.
-/
import Idealize.ShloMosaic.PureOps.Ideal
import Idealize.ShloMosaic.Lib.ValueIdx

noncomputable section

namespace Cert.LiquidCell

open Idealize.ShloMosaic Idealize.ShloMosaic.ValueIdx

/-- The input x, one row of 512 per batch entry. -/
abbrev SIn : Shape := ⟨2, ![2048, 512]⟩
/-- The hidden state (and each result), one row of 2048 per batch entry. -/
abbrev SHid : Shape := ⟨2, ![2048, 2048]⟩
/-- A weight matrix or the mask: one row of 2560 per output unit. -/
abbrev SWt : Shape := ⟨2, ![2048, 2560]⟩
/-- A bias: one entry per output unit. -/
abbrev SBias : Shape := ⟨1, ![2048]⟩

/-- The shared input row of batch entry `b`: the 512 entries of x, then the 2048 entries of hidden. -/
def joined (x : SIn.Idx → EReal) (hid : SHid.Idx → EReal) (b : Fin 2048) (h : Fin 2560) : EReal :=
  if hh : h.val < 512 then x (ix2 b ⟨h.val, hh⟩)
  else hid (ix2 b ⟨h.val - 512, by have := h.isLt; omega⟩)

/-- Row `o` of a weight matrix (or of the mask). -/
def row (W : SWt.Idx → EReal) (o : Fin 2048) : Fin 2560 → EReal := fun h => W (ix2 o h)

/-- One masked linear: Σ_h u h · (w h · k h) + c. -/
def lin (u w k : Fin 2560 → EReal) (c : EReal) : EReal := (∑ h : Fin 2560, u h * (w h * k h)) + c

/-- The gate's pre-activation with the two weight rows and the two biases added first. -/
def gateFused (u w₁ w₂ k : Fin 2560 → EReal) (c₁ c₂ : EReal) : EReal :=
  (∑ h : Fin 2560, u h * ((w₁ h + w₂ h) * k h)) + (c₁ + c₂)

/-- The gate's pre-activation as the sum of two separate masked linears, the masked weight in front. -/
def gateSplit (u w₁ w₂ k : Fin 2560 → EReal) (c₁ c₂ : EReal) : EReal :=
  ((∑ h : Fin 2560, (w₁ h * k h) * u h) + c₁) + ((∑ h : Fin 2560, (w₂ h * k h) * u h) + c₂)

/-- The gated blend of the two candidate states: tanh g · (1 − σ s) + σ s · tanh h, the one written as its word. -/
def blend (g h s : EReal) : EReal :=
  Ideal.tanh g * (Ideal.ofBits .f32 0x3F800000#32 - Ideal.logistic s) + Ideal.logistic s * Ideal.tanh h

/-- A finite sum of reals, each read as an extended real, is the real sum read as an extended real. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A masked linear does not care on which side of the input the masked weight is written. -/
theorem lin_comm (u w k : Fin 2560 → EReal) (c : EReal) :
    (∑ h : Fin 2560, (w h * k h) * u h) + c = lin u w k c := by
  unfold lin
  exact congrArg (· + c) (Finset.sum_congr rfl fun h _ => mul_comm _ _)

/-- THE LAW: on rows and biases of real numbers, the two separate masked linears add up to the one masked linear of
    the added weights and biases: (a + b) · k = a · k + b · k entry by entry, and the sum over h splits in two. -/
theorem gateSplit_eq_gateFused (u w₁ w₂ k : Fin 2560 → EReal) (c₁ c₂ : EReal)
    (hu : ∀ h, ∃ r : ℝ, u h = (r : EReal)) (hw₁ : ∀ h, ∃ r : ℝ, w₁ h = (r : EReal))
    (hw₂ : ∀ h, ∃ r : ℝ, w₂ h = (r : EReal)) (hk : ∀ h, ∃ r : ℝ, k h = (r : EReal))
    (hc₁ : ∃ r : ℝ, c₁ = (r : EReal)) (hc₂ : ∃ r : ℝ, c₂ = (r : EReal)) :
    gateSplit u w₁ w₂ k c₁ c₂ = gateFused u w₁ w₂ k c₁ c₂ := by
  choose u' hu' using hu
  choose a ha using hw₁
  choose b hb using hw₂
  choose k' hk' using hk
  obtain ⟨p, rfl⟩ := hc₁
  obtain ⟨q, rfl⟩ := hc₂
  unfold gateSplit gateFused
  simp only [hu', ha, hb, hk', ← EReal.coe_mul, ← EReal.coe_add, coe_sum]
  refine congrArg (fun r : ℝ => (r : EReal)) ?_
  have hsplit : (∑ h : Fin 2560, u' h * ((a h + b h) * k' h))
      = (∑ h : Fin 2560, a h * k' h * u' h) + ∑ h : Fin 2560, b h * k' h * u' h := by
    rw [← Finset.sum_add_distrib]
    exact Finset.sum_congr rfl fun h _ => by ring
  rw [hsplit]; ring

section Arrays

variable (x : SIn.Idx → EReal) (hid : SHid.Idx → EReal) (mask : SWt.Idx → EReal)
  (Wg : SWt.Idx → EReal) (bg : SBias.Idx → EReal) (Wh : SWt.Idx → EReal) (bh : SBias.Idx → EReal)
  (Wfg : SWt.Idx → EReal) (bfg : SBias.Idx → EReal) (Wfh : SWt.Idx → EReal) (bfh : SBias.Idx → EReal)
  (Wp : SWt.Idx → EReal) (bp : SBias.Idx → EReal)

/-- The gate's pre-activation at (b, o), weights and biases added first. -/
def gateK (b o : Fin 2048) : EReal :=
  gateFused (joined x hid b) (row Wfg o) (row Wfh o) (row mask o) (bfg (ix1 o)) (bfh (ix1 o))

/-- The gate's pre-activation at (b, o), as two separate masked linears. -/
def gateR (b o : Fin 2048) : EReal :=
  gateSplit (joined x hid b) (row Wfg o) (row Wfh o) (row mask o) (bfg (ix1 o)) (bfh (ix1 o))

/-- new_hidden at (b, o) for a given gate pre-activation `s`. -/
def newHiddenAt (s : EReal) (b o : Fin 2048) : EReal :=
  blend (lin (joined x hid b) (row Wg o) (row mask o) (bg (ix1 o)))
    (lin (joined x hid b) (row Wh o) (row mask o) (bh (ix1 o))) s

/-- y at (b, o) for a given gate pre-activation `s`: the p linear plus new_hidden. -/
def yPredAt (s : EReal) (b o : Fin 2048) : EReal :=
  lin (joined x hid b) (row Wp o) (row mask o) (bp (ix1 o)) + newHiddenAt x hid mask Wg bg Wh bh s b o

/-- new_hidden as one array, the gate's weights and biases added first. -/
def newHiddenK : SHid.Idx → EReal := fun i =>
  newHiddenAt x hid mask Wg bg Wh bh (gateK x hid mask Wfg bfg Wfh bfh (i 0) (i 1)) (i 0) (i 1)

/-- y as one array, the gate's weights and biases added first. -/
def yPredK : SHid.Idx → EReal := fun i =>
  yPredAt x hid mask Wg bg Wh bh Wp bp (gateK x hid mask Wfg bfg Wfh bfh (i 0) (i 1)) (i 0) (i 1)

/-- new_hidden as one array, the gate as two separate masked linears. -/
def newHiddenR : SHid.Idx → EReal := fun i =>
  newHiddenAt x hid mask Wg bg Wh bh (gateR x hid mask Wfg bfg Wfh bfh (i 0) (i 1)) (i 0) (i 1)

/-- y as one array, the gate as two separate masked linears. -/
def yPredR : SHid.Idx → EReal := fun i =>
  yPredAt x hid mask Wg bg Wh bh Wp bp (gateR x hid mask Wfg bfg Wfh bfh (i 0) (i 1)) (i 0) (i 1)

/-- The shared input row has real entries when x and hidden do. -/
theorem joined_real (hx : ∀ i, ∃ r : ℝ, x i = (r : EReal)) (hh : ∀ i, ∃ r : ℝ, hid i = (r : EReal))
    (b : Fin 2048) (h : Fin 2560) : ∃ r : ℝ, joined x hid b h = (r : EReal) := by
  unfold joined
  split
  · exact hx _
  · exact hh _

/-- On arrays of real numbers the two ways of forming the gate agree at every (b, o). -/
theorem gateR_eq_gateK (hx : ∀ i, ∃ r : ℝ, x i = (r : EReal)) (hh : ∀ i, ∃ r : ℝ, hid i = (r : EReal))
    (hm : ∀ i, ∃ r : ℝ, mask i = (r : EReal)) (hWfg : ∀ i, ∃ r : ℝ, Wfg i = (r : EReal))
    (hbfg : ∀ i, ∃ r : ℝ, bfg i = (r : EReal)) (hWfh : ∀ i, ∃ r : ℝ, Wfh i = (r : EReal))
    (hbfh : ∀ i, ∃ r : ℝ, bfh i = (r : EReal)) (b o : Fin 2048) :
    gateR x hid mask Wfg bfg Wfh bfh b o = gateK x hid mask Wfg bfg Wfh bfh b o :=
  gateSplit_eq_gateFused _ _ _ _ _ _ (joined_real x hid hx hh b) (fun h => hWfg _) (fun h => hWfh _) (fun h => hm _)
    (hbfg _) (hbfh _)

/-- So the two spellings of new_hidden are one array, -/
theorem newHiddenR_eq (hx : ∀ i, ∃ r : ℝ, x i = (r : EReal)) (hh : ∀ i, ∃ r : ℝ, hid i = (r : EReal))
    (hm : ∀ i, ∃ r : ℝ, mask i = (r : EReal)) (hWfg : ∀ i, ∃ r : ℝ, Wfg i = (r : EReal))
    (hbfg : ∀ i, ∃ r : ℝ, bfg i = (r : EReal)) (hWfh : ∀ i, ∃ r : ℝ, Wfh i = (r : EReal))
    (hbfh : ∀ i, ∃ r : ℝ, bfh i = (r : EReal)) :
    newHiddenR x hid mask Wg bg Wh bh Wfg bfg Wfh bfh = newHiddenK x hid mask Wg bg Wh bh Wfg bfg Wfh bfh := by
  funext i
  exact congrArg (fun s => newHiddenAt x hid mask Wg bg Wh bh s (i 0) (i 1))
    (gateR_eq_gateK x hid mask Wfg bfg Wfh bfh hx hh hm hWfg hbfg hWfh hbfh (i 0) (i 1))

/-- and so are the two spellings of y. -/
theorem yPredR_eq (hx : ∀ i, ∃ r : ℝ, x i = (r : EReal)) (hh : ∀ i, ∃ r : ℝ, hid i = (r : EReal))
    (hm : ∀ i, ∃ r : ℝ, mask i = (r : EReal)) (hWfg : ∀ i, ∃ r : ℝ, Wfg i = (r : EReal))
    (hbfg : ∀ i, ∃ r : ℝ, bfg i = (r : EReal)) (hWfh : ∀ i, ∃ r : ℝ, Wfh i = (r : EReal))
    (hbfh : ∀ i, ∃ r : ℝ, bfh i = (r : EReal)) :
    yPredR x hid mask Wg bg Wh bh Wfg bfg Wfh bfh Wp bp = yPredK x hid mask Wg bg Wh bh Wfg bfg Wfh bfh Wp bp := by
  funext i
  exact congrArg (fun s => yPredAt x hid mask Wg bg Wh bh Wp bp s (i 0) (i 1))
    (gateR_eq_gateK x hid mask Wfg bfg Wfh bfh hx hh hm hWfg hbfg hWfh hbfh (i 0) (i 1))

end Arrays

end Cert.LiquidCell

end
-- ==== Proof.Finite.lean ====
/-
  Finite inputs are real inputs.

  The precondition of this certificate says, of each of the thirteen float inputs x, that every entry
  satisfies |x| < +∞ (the conjunction over all entries, and then over the thirteen arrays). In the
  idealized semantics a float is an extended real, a point of [-∞, +∞], and |x| is max x (-x). The two
  infinities are exactly the points with |x| = +∞: max ⊤ (-⊤) = ⊤ and max ⊥ (-⊥) = max ⊥ ⊤ = ⊤. So the
  strict inequality |x| < +∞ holds precisely at the real numbers, and the precondition says that every
  entry of every input is (the image of) a real number.

  This matters because the algebra joining the two programs is distributivity of multiplication over a
  sum, which the extended reals do not have at the infinities: ⊤ · (1 + (-1)) = ⊤ · 0 = 0, while
  ⊤ · 1 + ⊤ · (-1) = ⊤ + ⊥ = ⊥. On real numbers it is the field law.
-/
import proofs.«105864_j35175782154587_2_alg».proof.Pre_finite_inputs
import Idealize.ShloMosaic.PureOps.Ideal
import Idealize.ShloMosaic.Lib.ValueIdx
import Idealize.ShloMosaic.Lib.ReduceAll

noncomputable section

namespace Cert.Finite

open Idealize.ShloMosaic

/-- The shape with no axes has exactly one index (the empty tuple of coordinates). -/
instance subsingleton_scalar_idx : Subsingleton Cert.Pre_finite_inputs.S_.Idx :=
  ⟨fun a b => funext fun d => d.elim0⟩

/-- The binary32 pattern with sign 0, exponent all ones and significand 0 denotes +∞. -/
theorem ofBits_pos_inf : (FloatOps.ofBits .f32 0x7F800000#32 : Ideal .f32) = (⊤ : EReal) := by
  show Ideal.ofBits .f32 0x7F800000#32 = ⊤
  simp [Ideal.ofBits, Ideal.ieee]

/-- An extended real whose absolute value max x (-x) lies strictly below +∞ is a real number: at x = +∞ the
    maximum is x itself, at x = -∞ it is -x = +∞, and neither is below +∞. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A truth value written as a one-bit word is the word 1 exactly when it is true. -/
theorem ofBool_eq_one {b : Bool} : BitVec.ofBool b = 1#1 ↔ b = true := by cases b <;> decide

/-- One entry: if the comparison |x| < +∞ came out true, x is a real number. The comparison of extended
    reals is the decision of the strict order, written as a one-bit word. -/
theorem real_of_cmp (x : Ideal .f32)
    (h : FloatOps.cmpf .olt (FloatOps.hostAbsf x) (FloatOps.ofBits .f32 0x7F800000#32 : Ideal .f32) = 1#1) :
    ∃ r : ℝ, x = (r : EReal) := by
  rw [ofBits_pos_inf] at h
  have h' : BitVec.ofBool (decide (max x (-x) < (⊤ : EReal))) = 1#1 := h
  exact real_of_abs_lt_top x (of_decide_eq_true (ofBool_eq_one.1 h'))

/-- One array, any shape: if the conjunction over all entries of |x| < +∞ (the entries compared with the
    constant +∞ spread over the array's shape, folded by "and" into a result with a single index) is true,
    then every entry of the array is a real number. -/
theorem reals_of_all_lt_inf {s c u t : Shape} {axes : List (Fin s.rank)} [Subsingleton t.Idx]
    (a : FVec Ideal s .f32) (dims : Fin c.rank → Fin s.rank) (hb : c.BroadcastsInDim s dims)
    (init : IVec u 1) (hr : s.ReducesTo axes t) (hu : 0 < u.numel) (j : t.Idx)
    (e : Host.reduce IntOp.andi
          (cmpf .olt (Host.absf a) (broadcastInDim s dims hb (constant c .f32 0x7F800000#32))) init hr hu j = 1#1)
    (i : s.Idx) : ∃ r : ℝ, a i = (r : EReal) :=
  real_of_cmp (a i) (Host.reduce_andi_all _ init hr hu j e i)

open Cert.Pre_finite_inputs in
/-- The precondition read back: if the conjunction of the thirteen "all entries have |x| < +∞" tests is
    true, every entry of every one of the thirteen inputs is a real number. -/
theorem reals_of_pre [Cert.Pre_finite_inputs.Facts]
    (a0 : FVec Ideal Cert.Pre_finite_inputs.S2048x512 .f32) (a1 : FVec Ideal Cert.Pre_finite_inputs.S2048x2048 .f32)
    (a2 a3 : FVec Ideal Cert.Pre_finite_inputs.S2048x2560 .f32) (a4 : FVec Ideal Cert.Pre_finite_inputs.S2048 .f32)
    (a5 : FVec Ideal Cert.Pre_finite_inputs.S2048x2560 .f32) (a6 : FVec Ideal Cert.Pre_finite_inputs.S2048 .f32)
    (a7 : FVec Ideal Cert.Pre_finite_inputs.S2048x2560 .f32) (a8 : FVec Ideal Cert.Pre_finite_inputs.S2048 .f32)
    (a9 : FVec Ideal Cert.Pre_finite_inputs.S2048x2560 .f32) (a10 : FVec Ideal Cert.Pre_finite_inputs.S2048 .f32)
    (a11 : FVec Ideal Cert.Pre_finite_inputs.S2048x2560 .f32) (a12 : FVec Ideal Cert.Pre_finite_inputs.S2048 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) ∧
    (∀ i, ∃ r : ℝ, a12 i = (r : EReal)) := by
  -- the result has one index; read the claim there, and spell the conjunction out
  have h0 := congrFun h ValueIdx.ix0
  dsimp only [fn, fn_part1, fn_part2, fn_part3] at h0
  -- the conjunction is nested to the left: peel the thirteen tests off from the last to the first
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨reals_of_all_lt_inf a0 _ _ _ _ _ _ e0, reals_of_all_lt_inf a1 _ _ _ _ _ _ e1,
    reals_of_all_lt_inf a2 _ _ _ _ _ _ e2, reals_of_all_lt_inf a3 _ _ _ _ _ _ e3,
    reals_of_all_lt_inf a4 _ _ _ _ _ _ e4, reals_of_all_lt_inf a5 _ _ _ _ _ _ e5,
    reals_of_all_lt_inf a6 _ _ _ _ _ _ e6, reals_of_all_lt_inf a7 _ _ _ _ _ _ e7,
    reals_of_all_lt_inf a8 _ _ _ _ _ _ e8, reals_of_all_lt_inf a9 _ _ _ _ _ _ e9,
    reals_of_all_lt_inf a10 _ _ _ _ _ _ e10, reals_of_all_lt_inf a11 _ _ _ _ _ _ e11,
    reals_of_all_lt_inf a12 _ _ _ _ _ _ e12⟩

end Cert.Finite

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.RefSide.lean ====
/-
  The reference program, read entry by entry, computes the specification's arrays.

  The reference joins x and hidden into one input row of 2560 entries per batch entry, stacks the five weight
  matrices and multiplies the stack by the mask, contracts the masked stack with the joined input over the 2560
  entries, adds the stacked biases, and cuts the result into its five planes g, h, fg, fh, p. It then forms
  tanh g · (1 − σ(fg + fh)) + σ(fg + fh) · tanh h, the sigmoid written out as 1 / (1 + exp (−·)), and adds p.

  Each lemma below reads one stage at explicit coordinates. Result entry (b, o) depends on row b of the joined
  input, on row o of the mask and of each weight matrix, and on entry o of each bias. The only laws used are the
  commutativity of one product (to write the masked weight behind the input, for the planes g, h, p) and the
  identification of the written-out sigmoid with the one-operation sigmoid; no entry needs to be finite.
-/
import proofs.«105864_j35175782154587_2_alg».proof.Proof.Gen.ReferenceIdeal.Read
import proofs.«105864_j35175782154587_2_alg».proof.Proof.CellSpec
import proofs.«105864_j35175782154587_2_alg».proof.Proof.LibSpellings
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx
open Cert.ReferenceIdeal Cert.ReferenceIdeal.Gen Cert.ReferenceIdeal.Read
open Cert.LiquidCell (joined row lin gateSplit)

/-- The input x as the reference takes it. -/
abbrev TX : Type := (⟨Cert.ReferenceIdeal.S2048x512, .f32⟩ : BufTy).Contents (Elt Ideal)
/-- The hidden state as the reference takes it. -/
abbrev TH : Type := (⟨Cert.ReferenceIdeal.S2048x2048, .f32⟩ : BufTy).Contents (Elt Ideal)
/-- A weight matrix or the mask as the reference takes it. -/
abbrev TW : Type := (⟨Cert.ReferenceIdeal.S2048x2560, .f32⟩ : BufTy).Contents (Elt Ideal)
/-- A bias as the reference takes it. -/
abbrev TB : Type := (⟨Cert.ReferenceIdeal.S2048, .f32⟩ : BufTy).Contents (Elt Ideal)

/-! ## The three concatenations at coordinates -/

/-- The joined input at (b, h): x at (b, h) for h below 512, hidden at (b, h − 512) from 512 on. -/
theorem v0_at (x0 : TX) (x1 : TH) (b : Fin 2048) (h : Fin 2560) :
    val_main_v0 (F := Ideal) x0 x1 (ix2 b h) = joined x0 x1 b h := by
  unfold val_main_v0 joined
  by_cases hh : h.val < 512
  · rw [dif_pos hh]
    exact concatenate_pair_apply_left (t := S2048x2560) (s₁ := S2048x512) (s₂ := S2048x2048) (1 : Fin 2) x0 x1
      concatenates_S2048x512_S2048x2048_S2048x2560_d1 (ix2 b h) rfl (ix2 b (⟨h.val, hh⟩ : Fin 512)) (fun c => by
        match c with
        | ⟨0, _⟩ => rfl
        | ⟨1, _⟩ => rfl)
  · rw [dif_neg hh]
    exact concatenate_pair_apply_right (t := S2048x2560) (s₁ := S2048x512) (s₂ := S2048x2048) (1 : Fin 2) x0 x1
      concatenates_S2048x512_S2048x2048_S2048x2560_d1 (ix2 b h) rfl rfl
      (ix2 b (⟨h.val - 512, by have := h.isLt; omega⟩ : Fin 2048)) (fun c hc => by
        match c with
        | ⟨0, _⟩ => rfl
        | ⟨1, _⟩ => exact absurd rfl hc) (by
        show h.val - 512 + 512 = h.val; omega)

/-- Plane 0 of the stacked weights is the first weight matrix. -/
theorem v6_at0 (x3 x5 x7 x9 x11 : TW) (o : Fin 2048) (h : Fin 2560) :
    val_main_v6 (F := Ideal) x3 x5 x7 x9 x11 (ix3 (0 : Fin 5) o h) = x3 (ix2 o h) := by
  unfold val_main_v6
  refine Eq.trans (concatenate_apply_piece (t := S5x2048x2560) (0 : Fin 3)
    [⟨S1x2048x2560, val_main_v1 (F := Ideal) x3⟩, ⟨S1x2048x2560, val_main_v2 (F := Ideal) x5⟩,
      ⟨S1x2048x2560, val_main_v3 (F := Ideal) x7⟩, ⟨S1x2048x2560, val_main_v4 (F := Ideal) x9⟩,
      ⟨S1x2048x2560, val_main_v5 (F := Ideal) x11⟩]
    concatenates_S1x2048x2560_S1x2048x2560_S1x2048x2560_S1x2048x2560_S1x2048x2560_S5x2048x2560_d0
    (ix3 (0 : Fin 5) o h) 0 (by decide : (0 : Nat) < 5) S1x2048x2560 (val_main_v1 (F := Ideal) x3) rfl rfl 0 rfl
    (ix3 (0 : Fin 1) o h) (fun c hc => by
      match c with
      | ⟨0, _⟩ => exact absurd rfl hc
      | ⟨1, _⟩ => rfl
      | ⟨2, _⟩ => rfl) rfl) ?_
  rw [val_main_v1_apply]
  exact congrArg x3 (funext fun c => by
    match c with
    | ⟨0, _⟩ => rfl
    | ⟨1, _⟩ => rfl)

/-- Plane 1 of the stacked weights is the second weight matrix. -/
theorem v6_at1 (x3 x5 x7 x9 x11 : TW) (o : Fin 2048) (h : Fin 2560) :
    val_main_v6 (F := Ideal) x3 x5 x7 x9 x11 (ix3 (1 : Fin 5) o h) = x5 (ix2 o h) := by
  unfold val_main_v6
  refine Eq.trans (concatenate_apply_piece (t := S5x2048x2560) (0 : Fin 3)
    [⟨S1x2048x2560, val_main_v1 (F := Ideal) x3⟩, ⟨S1x2048x2560, val_main_v2 (F := Ideal) x5⟩,
      ⟨S1x2048x2560, val_main_v3 (F := Ideal) x7⟩, ⟨S1x2048x2560, val_main_v4 (F := Ideal) x9⟩,
      ⟨S1x2048x2560, val_main_v5 (F := Ideal) x11⟩]
    concatenates_S1x2048x2560_S1x2048x2560_S1x2048x2560_S1x2048x2560_S1x2048x2560_S5x2048x2560_d0
    (ix3 (1 : Fin 5) o h) 1 (by decide : (1 : Nat) < 5) S1x2048x2560 (val_main_v2 (F := Ideal) x5) rfl rfl 1 rfl
    (ix3 (0 : Fin 1) o h) (fun c hc => by
      match c with
      | ⟨0, _⟩ => exact absurd rfl hc
      | ⟨1, _⟩ => rfl
      | ⟨2, _⟩ => rfl) rfl) ?_
  rw [val_main_v2_apply]
  exact congrArg x5 (funext fun c => by
    match c with
    | ⟨0, _⟩ => rfl
    | ⟨1, _⟩ => rfl)

/-- Plane 2 of the stacked weights is the third weight matrix. -/
theorem v6_at2 (x3 x5 x7 x9 x11 : TW) (o : Fin 2048) (h : Fin 2560) :
    val_main_v6 (F := Ideal) x3 x5 x7 x9 x11 (ix3 (2 : Fin 5) o h) = x7 (ix2 o h) := by
  unfold val_main_v6
  refine Eq.trans (concatenate_apply_piece (t := S5x2048x2560) (0 : Fin 3)
    [⟨S1x2048x2560, val_main_v1 (F := Ideal) x3⟩, ⟨S1x2048x2560, val_main_v2 (F := Ideal) x5⟩,
      ⟨S1x2048x2560, val_main_v3 (F := Ideal) x7⟩, ⟨S1x2048x2560, val_main_v4 (F := Ideal) x9⟩,
      ⟨S1x2048x2560, val_main_v5 (F := Ideal) x11⟩]
    concatenates_S1x2048x2560_S1x2048x2560_S1x2048x2560_S1x2048x2560_S1x2048x2560_S5x2048x2560_d0
    (ix3 (2 : Fin 5) o h) 2 (by decide : (2 : Nat) < 5) S1x2048x2560 (val_main_v3 (F := Ideal) x7) rfl rfl 2 rfl
    (ix3 (0 : Fin 1) o h) (fun c hc => by
      match c with
      | ⟨0, _⟩ => exact absurd rfl hc
      | ⟨1, _⟩ => rfl
      | ⟨2, _⟩ => rfl) rfl) ?_
  rw [val_main_v3_apply]
  exact congrArg x7 (funext fun c => by
    match c with
    | ⟨0, _⟩ => rfl
    | ⟨1, _⟩ => rfl)

/-- Plane 3 of the stacked weights is the fourth weight matrix. -/
theorem v6_at3 (x3 x5 x7 x9 x11 : TW) (o : Fin 2048) (h : Fin 2560) :
    val_main_v6 (F := Ideal) x3 x5 x7 x9 x11 (ix3 (3 : Fin 5) o h) = x9 (ix2 o h) := by
  unfold val_main_v6
  refine Eq.trans (concatenate_apply_piece (t := S5x2048x2560) (0 : Fin 3)
    [⟨S1x2048x2560, val_main_v1 (F := Ideal) x3⟩, ⟨S1x2048x2560, val_main_v2 (F := Ideal) x5⟩,
      ⟨S1x2048x2560, val_main_v3 (F := Ideal) x7⟩, ⟨S1x2048x2560, val_main_v4 (F := Ideal) x9⟩,
      ⟨S1x2048x2560, val_main_v5 (F := Ideal) x11⟩]
    concatenates_S1x2048x2560_S1x2048x2560_S1x2048x2560_S1x2048x2560_S1x2048x2560_S5x2048x2560_d0
    (ix3 (3 : Fin 5) o h) 3 (by decide : (3 : Nat) < 5) S1x2048x2560 (val_main_v4 (F := Ideal) x9) rfl rfl 3 rfl
    (ix3 (0 : Fin 1) o h) (fun c hc => by
      match c with
      | ⟨0, _⟩ => exact absurd rfl hc
      | ⟨1, _⟩ => rfl
      | ⟨2, _⟩ => rfl) rfl) ?_
  rw [val_main_v4_apply]
  exact congrArg x9 (funext fun c => by
    match c with
    | ⟨0, _⟩ => rfl
    | ⟨1, _⟩ => rfl)

/-- Plane 4 of the stacked weights is the fifth weight matrix. -/
theorem v6_at4 (x3 x5 x7 x9 x11 : TW) (o : Fin 2048) (h : Fin 2560) :
    val_main_v6 (F := Ideal) x3 x5 x7 x9 x11 (ix3 (4 : Fin 5) o h) = x11 (ix2 o h) := by
  unfold val_main_v6
  refine Eq.trans (concatenate_apply_piece (t := S5x2048x2560) (0 : Fin 3)
    [⟨S1x2048x2560, val_main_v1 (F := Ideal) x3⟩, ⟨S1x2048x2560, val_main_v2 (F := Ideal) x5⟩,
      ⟨S1x2048x2560, val_main_v3 (F := Ideal) x7⟩, ⟨S1x2048x2560, val_main_v4 (F := Ideal) x9⟩,
      ⟨S1x2048x2560, val_main_v5 (F := Ideal) x11⟩]
    concatenates_S1x2048x2560_S1x2048x2560_S1x2048x2560_S1x2048x2560_S1x2048x2560_S5x2048x2560_d0
    (ix3 (4 : Fin 5) o h) 4 (by decide : (4 : Nat) < 5) S1x2048x2560 (val_main_v5 (F := Ideal) x11) rfl rfl 4 rfl
    (ix3 (0 : Fin 1) o h) (fun c hc => by
      match c with
      | ⟨0, _⟩ => exact absurd rfl hc
      | ⟨1, _⟩ => rfl
      | ⟨2, _⟩ => rfl) rfl) ?_
  rw [val_main_v5_apply]
  exact congrArg x11 (funext fun c => by
    match c with
    | ⟨0, _⟩ => rfl
    | ⟨1, _⟩ => rfl)

/-- Row 0 of the stacked biases is the first bias. -/
theorem v15_at0 (x4 x6 x8 x10 x12 : TB) (o : Fin 2048) :
    val_main_v15 (F := Ideal) x4 x6 x8 x10 x12 (ix2 (0 : Fin 5) o) = x4 (ix1 o) := by
  unfold val_main_v15
  refine Eq.trans (concatenate_apply_piece (t := S5x2048) (0 : Fin 2)
    [⟨S1x2048, val_main_v10 (F := Ideal) x4⟩, ⟨S1x2048, val_main_v11 (F := Ideal) x6⟩,
      ⟨S1x2048, val_main_v12 (F := Ideal) x8⟩, ⟨S1x2048, val_main_v13 (F := Ideal) x10⟩,
      ⟨S1x2048, val_main_v14 (F := Ideal) x12⟩]
    concatenates_S1x2048_S1x2048_S1x2048_S1x2048_S1x2048_S5x2048_d0
    (ix2 (0 : Fin 5) o) 0 (by decide : (0 : Nat) < 5) S1x2048 (val_main_v10 (F := Ideal) x4) rfl rfl 0 rfl
    (ix2 (0 : Fin 1) o) (fun c hc => by
      match c with
      | ⟨0, _⟩ => exact absurd rfl hc
      | ⟨1, _⟩ => rfl) rfl) ?_
  rw [val_main_v10_apply]
  exact congrArg x4 (funext fun c => by
    match c with
    | ⟨0, _⟩ => rfl)

/-- Row 1 of the stacked biases is the second bias. -/
theorem v15_at1 (x4 x6 x8 x10 x12 : TB) (o : Fin 2048) :
    val_main_v15 (F := Ideal) x4 x6 x8 x10 x12 (ix2 (1 : Fin 5) o) = x6 (ix1 o) := by
  unfold val_main_v15
  refine Eq.trans (concatenate_apply_piece (t := S5x2048) (0 : Fin 2)
    [⟨S1x2048, val_main_v10 (F := Ideal) x4⟩, ⟨S1x2048, val_main_v11 (F := Ideal) x6⟩,
      ⟨S1x2048, val_main_v12 (F := Ideal) x8⟩, ⟨S1x2048, val_main_v13 (F := Ideal) x10⟩,
      ⟨S1x2048, val_main_v14 (F := Ideal) x12⟩]
    concatenates_S1x2048_S1x2048_S1x2048_S1x2048_S1x2048_S5x2048_d0
    (ix2 (1 : Fin 5) o) 1 (by decide : (1 : Nat) < 5) S1x2048 (val_main_v11 (F := Ideal) x6) rfl rfl 1 rfl
    (ix2 (0 : Fin 1) o) (fun c hc => by
      match c with
      | ⟨0, _⟩ => exact absurd rfl hc
      | ⟨1, _⟩ => rfl) rfl) ?_
  rw [val_main_v11_apply]
  exact congrArg x6 (funext fun c => by
    match c with
    | ⟨0, _⟩ => rfl)

/-- Row 2 of the stacked biases is the third bias. -/
theorem v15_at2 (x4 x6 x8 x10 x12 : TB) (o : Fin 2048) :
    val_main_v15 (F := Ideal) x4 x6 x8 x10 x12 (ix2 (2 : Fin 5) o) = x8 (ix1 o) := by
  unfold val_main_v15
  refine Eq.trans (concatenate_apply_piece (t := S5x2048) (0 : Fin 2)
    [⟨S1x2048, val_main_v10 (F := Ideal) x4⟩, ⟨S1x2048, val_main_v11 (F := Ideal) x6⟩,
      ⟨S1x2048, val_main_v12 (F := Ideal) x8⟩, ⟨S1x2048, val_main_v13 (F := Ideal) x10⟩,
      ⟨S1x2048, val_main_v14 (F := Ideal) x12⟩]
    concatenates_S1x2048_S1x2048_S1x2048_S1x2048_S1x2048_S5x2048_d0
    (ix2 (2 : Fin 5) o) 2 (by decide : (2 : Nat) < 5) S1x2048 (val_main_v12 (F := Ideal) x8) rfl rfl 2 rfl
    (ix2 (0 : Fin 1) o) (fun c hc => by
      match c with
      | ⟨0, _⟩ => exact absurd rfl hc
      | ⟨1, _⟩ => rfl) rfl) ?_
  rw [val_main_v12_apply]
  exact congrArg x8 (funext fun c => by
    match c with
    | ⟨0, _⟩ => rfl)

/-- Row 3 of the stacked biases is the fourth bias. -/
theorem v15_at3 (x4 x6 x8 x10 x12 : TB) (o : Fin 2048) :
    val_main_v15 (F := Ideal) x4 x6 x8 x10 x12 (ix2 (3 : Fin 5) o) = x10 (ix1 o) := by
  unfold val_main_v15
  refine Eq.trans (concatenate_apply_piece (t := S5x2048) (0 : Fin 2)
    [⟨S1x2048, val_main_v10 (F := Ideal) x4⟩, ⟨S1x2048, val_main_v11 (F := Ideal) x6⟩,
      ⟨S1x2048, val_main_v12 (F := Ideal) x8⟩, ⟨S1x2048, val_main_v13 (F := Ideal) x10⟩,
      ⟨S1x2048, val_main_v14 (F := Ideal) x12⟩]
    concatenates_S1x2048_S1x2048_S1x2048_S1x2048_S1x2048_S5x2048_d0
    (ix2 (3 : Fin 5) o) 3 (by decide : (3 : Nat) < 5) S1x2048 (val_main_v13 (F := Ideal) x10) rfl rfl 3 rfl
    (ix2 (0 : Fin 1) o) (fun c hc => by
      match c with
      | ⟨0, _⟩ => exact absurd rfl hc
      | ⟨1, _⟩ => rfl) rfl) ?_
  rw [val_main_v13_apply]
  exact congrArg x10 (funext fun c => by
    match c with
    | ⟨0, _⟩ => rfl)

/-- Row 4 of the stacked biases is the fifth bias. -/
theorem v15_at4 (x4 x6 x8 x10 x12 : TB) (o : Fin 2048) :
    val_main_v15 (F := Ideal) x4 x6 x8 x10 x12 (ix2 (4 : Fin 5) o) = x12 (ix1 o) := by
  unfold val_main_v15
  refine Eq.trans (concatenate_apply_piece (t := S5x2048) (0 : Fin 2)
    [⟨S1x2048, val_main_v10 (F := Ideal) x4⟩, ⟨S1x2048, val_main_v11 (F := Ideal) x6⟩,
      ⟨S1x2048, val_main_v12 (F := Ideal) x8⟩, ⟨S1x2048, val_main_v13 (F := Ideal) x10⟩,
      ⟨S1x2048, val_main_v14 (F := Ideal) x12⟩]
    concatenates_S1x2048_S1x2048_S1x2048_S1x2048_S1x2048_S5x2048_d0
    (ix2 (4 : Fin 5) o) 4 (by decide : (4 : Nat) < 5) S1x2048 (val_main_v14 (F := Ideal) x12) rfl rfl 4 rfl
    (ix2 (0 : Fin 1) o) (fun c hc => by
      match c with
      | ⟨0, _⟩ => exact absurd rfl hc
      | ⟨1, _⟩ => rfl) rfl) ?_
  rw [val_main_v14_apply]
  exact congrArg x12 (funext fun c => by
    match c with
    | ⟨0, _⟩ => rfl)

/-! ## The masked stacked weights -/

/-- The mask, repeated over the five planes, at (k, o, h) is the mask at (o, h). -/
theorem v8_at (x2 : TW) (k : Fin 5) (o : Fin 2048) (h : Fin 2560) :
    val_main_v8 (F := Ideal) x2 (ix3 k o h) = x2 (ix2 o h) := by
  rw [val_main_v8_apply, val_main_v7_apply]
  exact congrArg x2 (funext fun c => by
    match c with
    | ⟨0, _⟩ => rfl
    | ⟨1, _⟩ => rfl)

/-- Plane 0 of the masked stack at (o, h): the first weight times the mask, entry by entry. -/
theorem v9_at0 (x2 x3 x5 x7 x9 x11 : TW) (o : Fin 2048) (h : Fin 2560) :
    val_main_v9 (F := Ideal) x2 x3 x5 x7 x9 x11 (ix3 (0 : Fin 5) o h) = row x3 o h * row x2 o h := by
  rw [val_main_v9_apply, v6_at0, v8_at]
  rfl

/-- Plane 1 of the masked stack at (o, h): the second weight times the mask, entry by entry. -/
theorem v9_at1 (x2 x3 x5 x7 x9 x11 : TW) (o : Fin 2048) (h : Fin 2560) :
    val_main_v9 (F := Ideal) x2 x3 x5 x7 x9 x11 (ix3 (1 : Fin 5) o h) = row x5 o h * row x2 o h := by
  rw [val_main_v9_apply, v6_at1, v8_at]
  rfl

/-- Plane 2 of the masked stack at (o, h): the third weight times the mask, entry by entry. -/
theorem v9_at2 (x2 x3 x5 x7 x9 x11 : TW) (o : Fin 2048) (h : Fin 2560) :
    val_main_v9 (F := Ideal) x2 x3 x5 x7 x9 x11 (ix3 (2 : Fin 5) o h) = row x7 o h * row x2 o h := by
  rw [val_main_v9_apply, v6_at2, v8_at]
  rfl

/-- Plane 3 of the masked stack at (o, h): the fourth weight times the mask, entry by entry. -/
theorem v9_at3 (x2 x3 x5 x7 x9 x11 : TW) (o : Fin 2048) (h : Fin 2560) :
    val_main_v9 (F := Ideal) x2 x3 x5 x7 x9 x11 (ix3 (3 : Fin 5) o h) = row x9 o h * row x2 o h := by
  rw [val_main_v9_apply, v6_at3, v8_at]
  rfl

/-- Plane 4 of the masked stack at (o, h): the fifth weight times the mask, entry by entry. -/
theorem v9_at4 (x2 x3 x5 x7 x9 x11 : TW) (o : Fin 2048) (h : Fin 2560) :
    val_main_v9 (F := Ideal) x2 x3 x5 x7 x9 x11 (ix3 (4 : Fin 5) o h) = row x11 o h * row x2 o h := by
  rw [val_main_v9_apply, v6_at4, v8_at]
  rfl

/-! ## The contraction, the transposition and the bias -/

/-- The stacked biases, repeated over the batch, at (k, b, o) are the stacked biases at (k, o). -/
theorem v19_at (x4 x6 x8 x10 x12 : TB) (k : Fin 5) (b o : Fin 2048) :
    val_main_v19 (F := Ideal) x4 x6 x8 x10 x12 (ix3 k b o) = val_main_v15 (F := Ideal) x4 x6 x8 x10 x12 (ix2 k o) := by
  rw [val_main_v19_apply, val_main_v18_apply]
  exact congrArg (val_main_v15 (F := Ideal) x4 x6 x8 x10 x12) (funext fun c => by
    match c with
    | ⟨0, _⟩ => rfl
    | ⟨1, _⟩ => rfl)

/-- The transposed contraction at (k, b, o) is the contraction at (k, o, b). -/
theorem v17_at (x0 : TX) (x1 : TH) (x2 x3 x5 x7 x9 x11 : TW) (k : Fin 5) (b o : Fin 2048) :
    val_main_v17 (F := Ideal) x0 x1 x2 x3 x5 x7 x9 x11 (ix3 k b o)
      = val_main_v16 (F := Ideal) x0 x1 x2 x3 x5 x7 x9 x11 (ix3 k o b) := by
  rw [val_main_v17_apply]
  exact congrArg (val_main_v16 (F := Ideal) x0 x1 x2 x3 x5 x7 x9 x11) (funext fun c => by
    match c with
    | ⟨0, _⟩ => rfl
    | ⟨1, _⟩ => rfl
    | ⟨2, _⟩ => rfl)

/-- The left operand of the contraction for result entry (k, o, b) and summation entry h sits at (k, o, h). -/
theorem lidx_at (k : Fin 5) (o b : Fin 2048) (h : Fin 2560) :
    lidx_main_v16 (ix3 k o b) h = ix3 k o h :=
  funext fun c => by
    match c with
    | ⟨0, _⟩ => rfl
    | ⟨1, _⟩ => rfl
    | ⟨2, _⟩ => rfl

/-- The right operand of the contraction for result entry (k, o, b) and summation entry h sits at (b, h). -/
theorem ridx_at (k : Fin 5) (o b : Fin 2048) (h : Fin 2560) :
    ridx_main_v16 (ix3 k o b) h = ix2 b h :=
  funext fun c => by
    match c with
    | ⟨0, _⟩ => rfl
    | ⟨1, _⟩ => rfl

/-- Plane 0 of the contraction at (o, b): the sum over h of the masked first weight at (o, h) times the joined
    input at (b, h). -/
theorem v16_at0 (x0 : TX) (x1 : TH) (x2 x3 x5 x7 x9 x11 : TW) (o b : Fin 2048) :
    val_main_v16 (F := Ideal) x0 x1 x2 x3 x5 x7 x9 x11 (ix3 (0 : Fin 5) o b)
      = ∑ h : Fin 2560, (row x3 o h * row x2 o h) * joined x0 x1 b h := by
  rw [val_main_v16_apply]
  refine Finset.sum_congr rfl fun h _ => ?_
  rw [lidx_at, ridx_at, v9_at0, v0_at]

/-- Plane 0 of the five linears at (b, o): that sum plus the first bias at o. -/
theorem v20_at0 (x0 : TX) (x1 : TH) (x2 x3 : TW) (x4 : TB) (x5 : TW) (x6 : TB) (x7 : TW) (x8 : TB) (x9 : TW) (x10 : TB)
    (x11 : TW) (x12 : TB) (b o : Fin 2048) :
    val_main_v20 (F := Ideal) x0 x1 x2 x3 x4 x5 x6 x7 x8 x9 x10 x11 x12 (ix3 (0 : Fin 5) b o)
      = (∑ h : Fin 2560, (row x3 o h * row x2 o h) * joined x0 x1 b h) + x4 (ix1 o) := by
  rw [val_main_v20_apply, v17_at, v16_at0, v19_at, v15_at0]
  rfl

/-- Plane 1 of the contraction at (o, b): the sum over h of the masked second weight at (o, h) times the joined
    input at (b, h). -/
theorem v16_at1 (x0 : TX) (x1 : TH) (x2 x3 x5 x7 x9 x11 : TW) (o b : Fin 2048) :
    val_main_v16 (F := Ideal) x0 x1 x2 x3 x5 x7 x9 x11 (ix3 (1 : Fin 5) o b)
      = ∑ h : Fin 2560, (row x5 o h * row x2 o h) * joined x0 x1 b h := by
  rw [val_main_v16_apply]
  refine Finset.sum_congr rfl fun h _ => ?_
  rw [lidx_at, ridx_at, v9_at1, v0_at]

/-- Plane 1 of the five linears at (b, o): that sum plus the second bias at o. -/
theorem v20_at1 (x0 : TX) (x1 : TH) (x2 x3 : TW) (x4 : TB) (x5 : TW) (x6 : TB) (x7 : TW) (x8 : TB) (x9 : TW) (x10 : TB)
    (x11 : TW) (x12 : TB) (b o : Fin 2048) :
    val_main_v20 (F := Ideal) x0 x1 x2 x3 x4 x5 x6 x7 x8 x9 x10 x11 x12 (ix3 (1 : Fin 5) b o)
      = (∑ h : Fin 2560, (row x5 o h * row x2 o h) * joined x0 x1 b h) + x6 (ix1 o) := by
  rw [val_main_v20_apply, v17_at, v16_at1, v19_at, v15_at1]
  rfl

/-- Plane 2 of the contraction at (o, b): the sum over h of the masked third weight at (o, h) times the joined
    input at (b, h). -/
theorem v16_at2 (x0 : TX) (x1 : TH) (x2 x3 x5 x7 x9 x11 : TW) (o b : Fin 2048) :
    val_main_v16 (F := Ideal) x0 x1 x2 x3 x5 x7 x9 x11 (ix3 (2 : Fin 5) o b)
      = ∑ h : Fin 2560, (row x7 o h * row x2 o h) * joined x0 x1 b h := by
  rw [val_main_v16_apply]
  refine Finset.sum_congr rfl fun h _ => ?_
  rw [lidx_at, ridx_at, v9_at2, v0_at]

/-- Plane 2 of the five linears at (b, o): that sum plus the third bias at o. -/
theorem v20_at2 (x0 : TX) (x1 : TH) (x2 x3 : TW) (x4 : TB) (x5 : TW) (x6 : TB) (x7 : TW) (x8 : TB) (x9 : TW) (x10 : TB)
    (x11 : TW) (x12 : TB) (b o : Fin 2048) :
    val_main_v20 (F := Ideal) x0 x1 x2 x3 x4 x5 x6 x7 x8 x9 x10 x11 x12 (ix3 (2 : Fin 5) b o)
      = (∑ h : Fin 2560, (row x7 o h * row x2 o h) * joined x0 x1 b h) + x8 (ix1 o) := by
  rw [val_main_v20_apply, v17_at, v16_at2, v19_at, v15_at2]
  rfl

/-- Plane 3 of the contraction at (o, b): the sum over h of the masked fourth weight at (o, h) times the joined
    input at (b, h). -/
theorem v16_at3 (x0 : TX) (x1 : TH) (x2 x3 x5 x7 x9 x11 : TW) (o b : Fin 2048) :
    val_main_v16 (F := Ideal) x0 x1 x2 x3 x5 x7 x9 x11 (ix3 (3 : Fin 5) o b)
      = ∑ h : Fin 2560, (row x9 o h * row x2 o h) * joined x0 x1 b h := by
  rw [val_main_v16_apply]
  refine Finset.sum_congr rfl fun h _ => ?_
  rw [lidx_at, ridx_at, v9_at3, v0_at]

/-- Plane 3 of the five linears at (b, o): that sum plus the fourth bias at o. -/
theorem v20_at3 (x0 : TX) (x1 : TH) (x2 x3 : TW) (x4 : TB) (x5 : TW) (x6 : TB) (x7 : TW) (x8 : TB) (x9 : TW) (x10 : TB)
    (x11 : TW) (x12 : TB) (b o : Fin 2048) :
    val_main_v20 (F := Ideal) x0 x1 x2 x3 x4 x5 x6 x7 x8 x9 x10 x11 x12 (ix3 (3 : Fin 5) b o)
      = (∑ h : Fin 2560, (row x9 o h * row x2 o h) * joined x0 x1 b h) + x10 (ix1 o) := by
  rw [val_main_v20_apply, v17_at, v16_at3, v19_at, v15_at3]
  rfl

/-- Plane 4 of the contraction at (o, b): the sum over h of the masked fifth weight at (o, h) times the joined
    input at (b, h). -/
theorem v16_at4 (x0 : TX) (x1 : TH) (x2 x3 x5 x7 x9 x11 : TW) (o b : Fin 2048) :
    val_main_v16 (F := Ideal) x0 x1 x2 x3 x5 x7 x9 x11 (ix3 (4 : Fin 5) o b)
      = ∑ h : Fin 2560, (row x11 o h * row x2 o h) * joined x0 x1 b h := by
  rw [val_main_v16_apply]
  refine Finset.sum_congr rfl fun h _ => ?_
  rw [lidx_at, ridx_at, v9_at4, v0_at]

/-- Plane 4 of the five linears at (b, o): that sum plus the fifth bias at o. -/
theorem v20_at4 (x0 : TX) (x1 : TH) (x2 x3 : TW) (x4 : TB) (x5 : TW) (x6 : TB) (x7 : TW) (x8 : TB) (x9 : TW) (x10 : TB)
    (x11 : TW) (x12 : TB) (b o : Fin 2048) :
    val_main_v20 (F := Ideal) x0 x1 x2 x3 x4 x5 x6 x7 x8 x9 x10 x11 x12 (ix3 (4 : Fin 5) b o)
      = (∑ h : Fin 2560, (row x11 o h * row x2 o h) * joined x0 x1 b h) + x12 (ix1 o) := by
  rw [val_main_v20_apply, v17_at, v16_at4, v19_at, v15_at4]
  rfl

/-! ## The five planes cut out and recast to [2048, 2048] -/

/-- Plane 0 cut out of the stack and recast to a matrix: entry (b, o) is the stack's entry (0, b, o); the recast keeps
    the row-major position b · 2048 + o. -/
theorem v22_at (x0 : TX) (x1 : TH) (x2 x3 : TW) (x4 : TB) (x5 : TW) (x6 : TB) (x7 : TW) (x8 : TB) (x9 : TW) (x10 : TB)
    (x11 : TW) (x12 : TB) (b o : Fin 2048) :
    val_main_v22 (F := Ideal) x0 x1 x2 x3 x4 x5 x6 x7 x8 x9 x10 x11 x12 (ix2 b o)
      = val_main_v20 (F := Ideal) x0 x1 x2 x3 x4 x5 x6 x7 x8 x9 x10 x11 x12 (ix3 (0 : Fin 5) b o) := by
  rw [val_main_v22_apply, val_main_v21_apply]
  exact congrArg (val_main_v20 (F := Ideal) x0 x1 x2 x3 x4 x5 x6 x7 x8 x9 x10 x11 x12) (funext fun c => Fin.ext (by
    have hb := b.isLt
    have ho := o.isLt
    match c with
    | ⟨0, _⟩ => rfl
    | ⟨1, _⟩ => show (b.val * 2048 + o.val) / 2048 % 2048 = b.val; omega
    | ⟨2, _⟩ => show (b.val * 2048 + o.val) % 2048 = o.val; omega))

/-- Plane 1 cut out of the stack and recast to a matrix: entry (b, o) is the stack's entry (1, b, o); the recast keeps
    the row-major position b · 2048 + o. -/
theorem v24_at (x0 : TX) (x1 : TH) (x2 x3 : TW) (x4 : TB) (x5 : TW) (x6 : TB) (x7 : TW) (x8 : TB) (x9 : TW) (x10 : TB)
    (x11 : TW) (x12 : TB) (b o : Fin 2048) :
    val_main_v24 (F := Ideal) x0 x1 x2 x3 x4 x5 x6 x7 x8 x9 x10 x11 x12 (ix2 b o)
      = val_main_v20 (F := Ideal) x0 x1 x2 x3 x4 x5 x6 x7 x8 x9 x10 x11 x12 (ix3 (1 : Fin 5) b o) := by
  rw [val_main_v24_apply, val_main_v23_apply]
  exact congrArg (val_main_v20 (F := Ideal) x0 x1 x2 x3 x4 x5 x6 x7 x8 x9 x10 x11 x12) (funext fun c => Fin.ext (by
    have hb := b.isLt
    have ho := o.isLt
    match c with
    | ⟨0, _⟩ => rfl
    | ⟨1, _⟩ => show (b.val * 2048 + o.val) / 2048 % 2048 = b.val; omega
    | ⟨2, _⟩ => show (b.val * 2048 + o.val) % 2048 = o.val; omega))

/-- Plane 2 cut out of the stack and recast to a matrix: entry (b, o) is the stack's entry (2, b, o); the recast keeps
    the row-major position b · 2048 + o. -/
theorem v26_at (x0 : TX) (x1 : TH) (x2 x3 : TW) (x4 : TB) (x5 : TW) (x6 : TB) (x7 : TW) (x8 : TB) (x9 : TW) (x10 : TB)
    (x11 : TW) (x12 : TB) (b o : Fin 2048) :
    val_main_v26 (F := Ideal) x0 x1 x2 x3 x4 x5 x6 x7 x8 x9 x10 x11 x12 (ix2 b o)
      = val_main_v20 (F := Ideal) x0 x1 x2 x3 x4 x5 x6 x7 x8 x9 x10 x11 x12 (ix3 (2 : Fin 5) b o) := by
  rw [val_main_v26_apply, val_main_v25_apply]
  exact congrArg (val_main_v20 (F := Ideal) x0 x1 x2 x3 x4 x5 x6 x7 x8 x9 x10 x11 x12) (funext fun c => Fin.ext (by
    have hb := b.isLt
    have ho := o.isLt
    match c with
    | ⟨0, _⟩ => rfl
    | ⟨1, _⟩ => show (b.val * 2048 + o.val) / 2048 % 2048 = b.val; omega
    | ⟨2, _⟩ => show (b.val * 2048 + o.val) % 2048 = o.val; omega))

/-- Plane 3 cut out of the stack and recast to a matrix: entry (b, o) is the stack's entry (3, b, o); the recast keeps
    the row-major position b · 2048 + o. -/
theorem v28_at (x0 : TX) (x1 : TH) (x2 x3 : TW) (x4 : TB) (x5 : TW) (x6 : TB) (x7 : TW) (x8 : TB) (x9 : TW) (x10 : TB)
    (x11 : TW) (x12 : TB) (b o : Fin 2048) :
    val_main_v28 (F := Ideal) x0 x1 x2 x3 x4 x5 x6 x7 x8 x9 x10 x11 x12 (ix2 b o)
      = val_main_v20 (F := Ideal) x0 x1 x2 x3 x4 x5 x6 x7 x8 x9 x10 x11 x12 (ix3 (3 : Fin 5) b o) := by
  rw [val_main_v28_apply, val_main_v27_apply]
  exact congrArg (val_main_v20 (F := Ideal) x0 x1 x2 x3 x4 x5 x6 x7 x8 x9 x10 x11 x12) (funext fun c => Fin.ext (by
    have hb := b.isLt
    have ho := o.isLt
    match c with
    | ⟨0, _⟩ => rfl
    | ⟨1, _⟩ => show (b.val * 2048 + o.val) / 2048 % 2048 = b.val; omega
    | ⟨2, _⟩ => show (b.val * 2048 + o.val) % 2048 = o.val; omega))

/-- Plane 4 cut out of the stack and recast to a matrix: entry (b, o) is the stack's entry (4, b, o); the recast keeps
    the row-major position b · 2048 + o. -/
theorem v30_at (x0 : TX) (x1 : TH) (x2 x3 : TW) (x4 : TB) (x5 : TW) (x6 : TB) (x7 : TW) (x8 : TB) (x9 : TW) (x10 : TB)
    (x11 : TW) (x12 : TB) (b o : Fin 2048) :
    val_main_v30 (F := Ideal) x0 x1 x2 x3 x4 x5 x6 x7 x8 x9 x10 x11 x12 (ix2 b o)
      = val_main_v20 (F := Ideal) x0 x1 x2 x3 x4 x5 x6 x7 x8 x9 x10 x11 x12 (ix3 (4 : Fin 5) b o) := by
  rw [val_main_v30_apply, val_main_v29_apply]
  exact congrArg (val_main_v20 (F := Ideal) x0 x1 x2 x3 x4 x5 x6 x7 x8 x9 x10 x11 x12) (funext fun c => Fin.ext (by
    have hb := b.isLt
    have ho := o.isLt
    match c with
    | ⟨0, _⟩ => rfl
    | ⟨1, _⟩ => show (b.val * 2048 + o.val) / 2048 % 2048 = b.val; omega
    | ⟨2, _⟩ => show (b.val * 2048 + o.val) % 2048 = o.val; omega))

/-! ## The three linears used as they are, the masked weight written behind the input -/

/-- The g plane at (b, o) is the masked linear of the first weight and bias. -/
theorem g_at (x0 : TX) (x1 : TH) (x2 x3 : TW) (x4 : TB) (x5 : TW) (x6 : TB) (x7 : TW) (x8 : TB) (x9 : TW) (x10 : TB)
    (x11 : TW) (x12 : TB) (b o : Fin 2048) :
    val_main_v22 (F := Ideal) x0 x1 x2 x3 x4 x5 x6 x7 x8 x9 x10 x11 x12 (ix2 b o)
      = lin (joined x0 x1 b) (row x3 o) (row x2 o) (x4 (ix1 o)) := by
  rw [v22_at, v20_at0]
  exact Cert.LiquidCell.lin_comm (joined x0 x1 b) (row x3 o) (row x2 o) (x4 (ix1 o))

/-- The h plane at (b, o) is the masked linear of the second weight and bias. -/
theorem h_at (x0 : TX) (x1 : TH) (x2 x3 : TW) (x4 : TB) (x5 : TW) (x6 : TB) (x7 : TW) (x8 : TB) (x9 : TW) (x10 : TB)
    (x11 : TW) (x12 : TB) (b o : Fin 2048) :
    val_main_v24 (F := Ideal) x0 x1 x2 x3 x4 x5 x6 x7 x8 x9 x10 x11 x12 (ix2 b o)
      = lin (joined x0 x1 b) (row x5 o) (row x2 o) (x6 (ix1 o)) := by
  rw [v24_at, v20_at1]
  exact Cert.LiquidCell.lin_comm (joined x0 x1 b) (row x5 o) (row x2 o) (x6 (ix1 o))

/-- The p plane at (b, o) is the masked linear of the fifth weight and bias. -/
theorem p_at (x0 : TX) (x1 : TH) (x2 x3 : TW) (x4 : TB) (x5 : TW) (x6 : TB) (x7 : TW) (x8 : TB) (x9 : TW) (x10 : TB)
    (x11 : TW) (x12 : TB) (b o : Fin 2048) :
    val_main_v30 (F := Ideal) x0 x1 x2 x3 x4 x5 x6 x7 x8 x9 x10 x11 x12 (ix2 b o)
      = lin (joined x0 x1 b) (row x11 o) (row x2 o) (x12 (ix1 o)) := by
  rw [v30_at, v20_at4]
  exact Cert.LiquidCell.lin_comm (joined x0 x1 b) (row x11 o) (row x2 o) (x12 (ix1 o))

/-! ## The gate -/

/-- The sum of the fg and fh planes at (b, o) is the gate's pre-activation as two separate masked linears, each with
    the masked weight in front of the input: nothing is rearranged. -/
theorem pre_at (x0 : TX) (x1 : TH) (x2 x3 : TW) (x4 : TB) (x5 : TW) (x6 : TB) (x7 : TW) (x8 : TB) (x9 : TW) (x10 : TB)
    (x11 : TW) (x12 : TB) (b o : Fin 2048) :
    val_main_v33 (F := Ideal) x0 x1 x2 x3 x4 x5 x6 x7 x8 x9 x10 x11 x12 (ix2 b o)
      = Cert.LiquidCell.gateR x0 x1 x2 x7 x8 x9 x10 b o := by
  rw [val_main_v33_apply, v26_at, v28_at, v20_at2, v20_at3]
  rfl

/-- The written-out sigmoid 1 / (1 + exp (−s)), its ones the word 0x3F800000, is the one-operation sigmoid of s. -/
theorem gate_at (x0 : TX) (x1 : TH) (x2 x3 : TW) (x4 : TB) (x5 : TW) (x6 : TB) (x7 : TW) (x8 : TB) (x9 : TW) (x10 : TB)
    (x11 : TW) (x12 : TB) (b o : Fin 2048) :
    val_main_v39 (F := Ideal) x0 x1 x2 x3 x4 x5 x6 x7 x8 x9 x10 x11 x12 (ix2 b o)
      = Ideal.logistic (Cert.LiquidCell.gateR x0 x1 x2 x7 x8 x9 x10 b o) := by
  rw [val_main_v39_apply, val_main_v38_apply, val_main_cst_0_apply, val_main_v37_apply, val_main_v36_apply,
    val_main_cst_apply, val_main_v35_apply, val_main_v34_apply, pre_at,
    Cert.LibSpellings.hostQuotient_eq_logistic, Ideal.logistic_def]

/-! ## The two results -/

/-- new_hidden at (b, o): tanh g · (1 − σ s) + σ s · tanh h, the one kept as its word. -/
theorem v44_at (x0 : TX) (x1 : TH) (x2 x3 : TW) (x4 : TB) (x5 : TW) (x6 : TB) (x7 : TW) (x8 : TB) (x9 : TW) (x10 : TB)
    (x11 : TW) (x12 : TB) (b o : Fin 2048) :
    val_main_v44 (F := Ideal) x0 x1 x2 x3 x4 x5 x6 x7 x8 x9 x10 x11 x12 (ix2 b o)
      = Cert.LiquidCell.newHiddenAt x0 x1 x2 x3 x4 x5 x6 (Cert.LiquidCell.gateR x0 x1 x2 x7 x8 x9 x10 b o) b o := by
  rw [val_main_v44_apply, val_main_v42_apply, val_main_v43_apply, val_main_v41_apply, val_main_v40_apply,
    val_main_cst_1_apply, val_main_v31_apply, val_main_v32_apply, gate_at, g_at, h_at]
  rfl

/-- y at (b, o): the p linear plus new_hidden. -/
theorem v45_at (x0 : TX) (x1 : TH) (x2 x3 : TW) (x4 : TB) (x5 : TW) (x6 : TB) (x7 : TW) (x8 : TB) (x9 : TW) (x10 : TB)
    (x11 : TW) (x12 : TB) (b o : Fin 2048) :
    val_main_v45 (F := Ideal) x0 x1 x2 x3 x4 x5 x6 x7 x8 x9 x10 x11 x12 (ix2 b o)
      = Cert.LiquidCell.yPredAt x0 x1 x2 x3 x4 x5 x6 x11 x12 (Cert.LiquidCell.gateR x0 x1 x2 x7 x8 x9 x10 b o) b o := by
  rw [val_main_v45_apply, v44_at, p_at]
  rfl

/-- The reference's second result, as an array, is the specification's new_hidden with the gate formed as two separate
    masked linears: entry (b, o) of each side is read above. -/
theorem newHidden_eq (x0 : (⟨Cert.ReferenceIdeal.S2048x512, .f32⟩ : BufTy).Contents (Elt Ideal))
    (x1 : (⟨Cert.ReferenceIdeal.S2048x2048, .f32⟩ : BufTy).Contents (Elt Ideal))
    (x2 x3 : (⟨Cert.ReferenceIdeal.S2048x2560, .f32⟩ : BufTy).Contents (Elt Ideal))
    (x4 : (⟨Cert.ReferenceIdeal.S2048, .f32⟩ : BufTy).Contents (Elt Ideal))
    (x5 : (⟨Cert.ReferenceIdeal.S2048x2560, .f32⟩ : BufTy).Contents (Elt Ideal))
    (x6 : (⟨Cert.ReferenceIdeal.S2048, .f32⟩ : BufTy).Contents (Elt Ideal))
    (x7 : (⟨Cert.ReferenceIdeal.S2048x2560, .f32⟩ : BufTy).Contents (Elt Ideal))
    (x8 : (⟨Cert.ReferenceIdeal.S2048, .f32⟩ : BufTy).Contents (Elt Ideal))
    (x9 : (⟨Cert.ReferenceIdeal.S2048x2560, .f32⟩ : BufTy).Contents (Elt Ideal))
    (x10 : (⟨Cert.ReferenceIdeal.S2048, .f32⟩ : BufTy).Contents (Elt Ideal))
    (x11 : (⟨Cert.ReferenceIdeal.S2048x2560, .f32⟩ : BufTy).Contents (Elt Ideal))
    (x12 : (⟨Cert.ReferenceIdeal.S2048, .f32⟩ : BufTy).Contents (Elt Ideal)) :
    Cert.ReferenceIdeal.Read.val_main_v44 (F := Ideal) x0 x1 x2 x3 x4 x5 x6 x7 x8 x9 x10 x11 x12
      = Cert.LiquidCell.newHiddenR x0 x1 x2 x3 x4 x5 x6 x7 x8 x9 x10 := by
  funext i
  obtain ⟨b, o, rfl⟩ : ∃ (b o : Fin 2048), i = ValueIdx.ix2 b o := ⟨i 0, i 1, ValueIdx.eq_ix2 i⟩
  exact v44_at x0 x1 x2 x3 x4 x5 x6 x7 x8 x9 x10 x11 x12 b o

/-- The reference's first result, as an array, is the specification's y with the gate formed as two separate masked
    linears. -/
theorem yPred_eq (x0 : (⟨Cert.ReferenceIdeal.S2048x512, .f32⟩ : BufTy).Contents (Elt Ideal))
    (x1 : (⟨Cert.ReferenceIdeal.S2048x2048, .f32⟩ : BufTy).Contents (Elt Ideal))
    (x2 x3 : (⟨Cert.ReferenceIdeal.S2048x2560, .f32⟩ : BufTy).Contents (Elt Ideal))
    (x4 : (⟨Cert.ReferenceIdeal.S2048, .f32⟩ : BufTy).Contents (Elt Ideal))
    (x5 : (⟨Cert.ReferenceIdeal.S2048x2560, .f32⟩ : BufTy).Contents (Elt Ideal))
    (x6 : (⟨Cert.ReferenceIdeal.S2048, .f32⟩ : BufTy).Contents (Elt Ideal))
    (x7 : (⟨Cert.ReferenceIdeal.S2048x2560, .f32⟩ : BufTy).Contents (Elt Ideal))
    (x8 : (⟨Cert.ReferenceIdeal.S2048, .f32⟩ : BufTy).Contents (Elt Ideal))
    (x9 : (⟨Cert.ReferenceIdeal.S2048x2560, .f32⟩ : BufTy).Contents (Elt Ideal))
    (x10 : (⟨Cert.ReferenceIdeal.S2048, .f32⟩ : BufTy).Contents (Elt Ideal))
    (x11 : (⟨Cert.ReferenceIdeal.S2048x2560, .f32⟩ : BufTy).Contents (Elt Ideal))
    (x12 : (⟨Cert.ReferenceIdeal.S2048, .f32⟩ : BufTy).Contents (Elt Ideal)) :
    Cert.ReferenceIdeal.Read.val_main_v45 (F := Ideal) x0 x1 x2 x3 x4 x5 x6 x7 x8 x9 x10 x11 x12
      = Cert.LiquidCell.yPredR x0 x1 x2 x3 x4 x5 x6 x7 x8 x9 x10 x11 x12 := by
  funext i
  obtain ⟨b, o, rfl⟩ : ∃ (b o : Fin 2048), i = ValueIdx.ix2 b o := ⟨i 0, i 1, ValueIdx.eq_ix2 i⟩
  exact v45_at x0 x1 x2 x3 x4 x5 x6 x7 x8 x9 x10 x11 x12 b o

end Cert.RefSide

end
-- ==== Proof.LibDotRhsT.lean ====
/-
  A matrix product with the right operand transposed, at the ideal values, read at an index.
  For the dimension numbers of an M×K by N×K product (`DotDims.transposedRhs M K N`: both operands contracted on their
  last axis, no batch axis) the kernel's `tpu.matmul` into a zero accumulator is, at the output index (a, b), the sum
  over k < K of l(a, k) · r(b, k) on the extended reals.
-/
import Idealize.ShloMosaic.PureOps.Ideal.Laws
import Idealize.ShloMosaic.Lib.ValueIdx

noncomputable section

namespace Cert.LibDotRhsT

open Idealize.ShloMosaic Idealize.ShloMosaic.ValueIdx

variable (M K N : Nat)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- The left operand's column is the contraction index. -/
theorem lhs1 (i : (⟨2, ![M, N]⟩ : Shape).Idx) (q : (DotDims.transposedRhs M K N).contr.Idx) :
    ((DotDims.transposedRhs M K N).lhsIdx i q 1).val
      = (q ⟨0, by rw [(DotDims.transposedRhs M K N).rank_contr]; exact Nat.one_pos⟩).val :=
  (DotDims.transposedRhs M K N).lhsIdx_val_of_single rfl i q

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The right operand's column is the contraction index. -/
theorem rhs1 (i : (⟨2, ![M, N]⟩ : Shape).Idx) (q : (DotDims.transposedRhs M K N).contr.Idx) :
    ((DotDims.transposedRhs M K N).rhsIdx i q 1).val
      = (q ⟨0, by rw [(DotDims.transposedRhs M K N).rank_contr]; exact Nat.one_pos⟩).val :=
  (DotDims.transposedRhs M K N).rhsIdx_val_of_single rfl i q

/-- The contraction's sum, re-indexed by k < K. -/
theorem sum_rhsT {φ₁ φ₂ : FTy} (l : FVec Ideal ⟨2, ![M, K]⟩ φ₁) (r : FVec Ideal ⟨2, ![N, K]⟩ φ₂) (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs0 M K N _ _
      | ⟨1, _⟩ => exact (lhs1 M K N _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs0 M K N _ _
      | ⟨1, _⟩ => exact (rhs1 M K N _ _).trans hk)
  exact congr (congrArg HMul.hMul (congrArg l el)) (congrArg r er)

/-- The kernel's product into a zero accumulator, at an index. -/
theorem matmul_rhsT {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    matmul (F := Ideal) (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_rhsT M K N l r j)

end Cert.LibDotRhsT

end
-- ==== Proof.BodyAt.lean ====
/-
  The kernel body's arithmetic, read entry by entry on the extended reals.

  At one grid point the body holds a block of 256 output units: their 256 rows of each weight matrix and of the mask
  (256 x 2560 each) and their 256 entries of each bias (a 1 x 256 row), beside all 2048 rows of the shared input
  (2048 x 2560). It walks the batch in eight slices of 256 rows; for the slice's rows r and the block's units q it forms
  four matrix products, each contracting the 2560 input entries of row r with the masked weight row of unit q,

      Σ_h input(r, h) · (weight(q, h) · mask(q, h)),

  adds the unit's bias, and blends: tanh g · (1 − σ s) + σ s · tanh h, plus the p product for y. For the gate s the two
  weight rows and the two biases are ADDED FIRST and one product is taken.
  Here each stored value of a slice is read at (row p of the slice, unit q): the matrix product with both operands
  contracted on their last axis is the sum above, a 1 x 256 bias row spread over the slice's rows reads the unit's entry,
  and everything else acts entry by entry. The results are stated with the specification's `lin`, `gateFused`, `blend`,
  so that the whole block is one function (`blockY`, `blockNH`) of (batch row, unit).
-/
import proofs.«105864_j35175782154587_2_alg».proof.Proof.Gen.KernelIdeal.Skeleton
import proofs.«105864_j35175782154587_2_alg».proof.Proof.CellSpec
import proofs.«105864_j35175782154587_2_alg».proof.Proof.LibDotRhsT
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.LiquidCell

/-- The body's four products all contract the last axis of both operands: a 256 x 2560 by 256 x 2560 product into
    256 x 256. -/
theorem dims_eq : dot_S256x2560_S256x2560_S256x256_1_1_0_0_n_n = DotDims.transposedRhs 256 2560 256 := rfl

/-- Such a product into a zero accumulator, at (p, q): the sum over the 2560 contracted entries of l(p, h) · r(q, h). -/
theorem product_at (l r : FVec Ideal S256x2560 .bf16) (p q : Fin 256) :
    matmul (F := Ideal) dot_S256x2560_S256x2560_S256x256_1_1_0_0_n_n none l r (constant S256x256 .f32 0x00000000#32) (ix2 p q)
      = ∑ h : Fin 2560, l (ix2 p h) * r (ix2 q h) :=
  Cert.LibDotRhsT.matmul_rhsT 256 2560 256 none l r (ix2 p q)

/-- A 1 x 256 row spread over 256 rows reads, at (p, q), the row's entry q. -/
theorem spreadRow_at (v : FVec Ideal S1x256 .f32) (p q : Fin 256) :
    broadcastTo S256x256 v broadcasts_S1x256_S256x256 (ix2 p q) = v (ix2 0 q) :=
  broadcastTo_apply v broadcasts_S1x256_S256x256 (ix2 p q) (ix2 0 q) (fun a => by
    match a with
    | ⟨0, _⟩ => show (0 : Nat) = if (1 : Nat) = 1 then 0 else _; rw [if_pos rfl]
    | ⟨1, _⟩ => show q.val = if (256 : Nat) = 1 then 0 else q.val; rw [if_neg (by decide)])

/-- One masked linear of the slice, at (p, q): input row p against the masked weight row q, plus the bias entry q. -/
theorem linear_at (mk inp wt : FVec Ideal S256x2560 .bf16) (bias : FVec Ideal S1x256 .f32) (p q : Fin 256) :
    addf (matmul (F := Ideal) dot_S256x2560_S256x2560_S256x256_1_1_0_0_n_n none inp (mulf wt mk)
          (constant S256x256 .f32 0x00000000#32))
        (broadcastTo S256x256 bias broadcasts_S1x256_S256x256) (ix2 p q)
      = lin (fun h => inp (ix2 p h)) (fun h => wt (ix2 q h)) (fun h => mk (ix2 q h)) (bias (ix2 0 q)) := by
  refine (addf_apply _ _ _).trans ?_
  rw [product_at, spreadRow_at]
  rfl

/-- The g linear of a slice (`k0_pay5`) at (p, q). -/
theorem pay5_at (v1 : FVec Ideal S256x2560 .bf16) (v6 v8 : Vec Ideal S256x2560 .bf16) (v12 : Vec Ideal S1x256 .f32)
    (p q : Fin 256) :
    k0_pay5 v1 v6 v8 v12 (ix2 p q)
      = lin (fun h => v6 (ix2 p h)) (fun h => v8 (ix2 q h)) (fun h => v1 (ix2 q h)) (v12 (ix2 0 q)) := by
  unfold k0_pay5 k0_pay4
  simp only [shapeCast_self]
  exact linear_at v1 v6 v8 v12 p q

/-- The h linear of a slice (`k0_pay6`) at (p, q). -/
theorem pay6_at (v1 : FVec Ideal S256x2560 .bf16) (v6 v16 : Vec Ideal S256x2560 .bf16) (v20 : Vec Ideal S1x256 .f32)
    (p q : Fin 256) :
    k0_pay6 v1 v6 v16 v20 (ix2 p q)
      = lin (fun h => v6 (ix2 p h)) (fun h => v16 (ix2 q h)) (fun h => v1 (ix2 q h)) (v20 (ix2 0 q)) := by
  unfold k0_pay6 k0_pay4
  simp only [shapeCast_self]
  exact linear_at v1 v6 v16 v20 p q

/-- The gate's pre-activation of a slice (`k0_pay7`) at (p, q): the two weight rows added, then masked, one product;
    the two bias entries added. -/
theorem pay7_at (v1 : FVec Ideal S256x2560 .bf16) (v6 v24 v26 : Vec Ideal S256x2560 .bf16) (v30 v32 : Vec Ideal S1x256 .f32)
    (p q : Fin 256) :
    k0_pay7 v1 v6 v24 v26 v30 v32 (ix2 p q)
      = gateFused (fun h => v6 (ix2 p h)) (fun h => v24 (ix2 q h)) (fun h => v26 (ix2 q h)) (fun h => v1 (ix2 q h))
          (v30 (ix2 0 q)) (v32 (ix2 0 q)) := by
  unfold k0_pay7 k0_pay4 gateFused
  simp only [shapeCast_self]
  refine (addf_apply _ _ _).trans ?_
  rw [product_at, spreadRow_at]
  rfl

/-- The blend of a slice (`k0_pay2`, the new_hidden store) at any index: entry by entry. -/
theorem pay2_at (v15 v23 v37 : FVec Ideal S256x256 .f32) (j : S256x256.Idx) :
    k0_pay2 v15 v23 v37 j = blend (v15 j) (v23 j) (v37 j) := rfl

/-- The y store of a slice (`k0_pay3`) at (p, q): the p linear plus the blend. -/
theorem pay3_at (v0 : Vec Ideal S256x2560 .bf16) (v7 : FVec Ideal S256x2560 .bf16) (v15 v23 v37 : FVec Ideal S256x256 .f32)
    (v38 : Vec Ideal S256x2560 .bf16) (v42 : Vec Ideal S1x256 .f32) (p q : Fin 256) :
    k0_pay3 v0 v7 v15 v23 v37 v38 v42 (ix2 p q)
      = lin (fun h => v7 (ix2 p h)) (fun h => v38 (ix2 q h)) (fun h => v0 (ix2 q h)) (v42 (ix2 0 q))
        + blend (v15 (ix2 p q)) (v23 (ix2 p q)) (v37 (ix2 p q)) := by
  unfold k0_pay3 k0_pay1
  simp only [shapeCast_self]
  refine (addf_apply _ _ _).trans ?_
  exact congrArg₂ (· + ·) (linear_at v0 v7 v38 v42 p q) (pay2_at v15 v23 v37 (ix2 p q))

/-! ## The block as one function of (batch row, unit) -/

section Block

variable (x0 : Vec Ideal S2048x2560 .bf16) (x1 x2 : Vec Ideal S256x2560 .bf16) (x3 : Vec Ideal S1x256 .f32)
  (x4 : Vec Ideal S256x2560 .bf16) (x5 : Vec Ideal S1x256 .f32) (x6 : Vec Ideal S256x2560 .bf16) (x7 : Vec Ideal S1x256 .f32)
  (x8 : Vec Ideal S256x2560 .bf16) (x9 : Vec Ideal S1x256 .f32) (x10 : Vec Ideal S256x2560 .bf16) (x11 : Vec Ideal S1x256 .f32)

/-- new_hidden of the block at (batch row r, unit q), from the point's blocks: the input (x0), the mask (x1), and the
    g, h, fg, fh weights and biases (x2 … x9). -/
def blockNHAt (r : Fin 2048) (q : Fin 256) : EReal :=
  blend (lin (fun h => x0 (ix2 r h)) (fun h => x2 (ix2 q h)) (fun h => x1 (ix2 q h)) (x3 (ix2 0 q)))
    (lin (fun h => x0 (ix2 r h)) (fun h => x4 (ix2 q h)) (fun h => x1 (ix2 q h)) (x5 (ix2 0 q)))
    (gateFused (fun h => x0 (ix2 r h)) (fun h => x6 (ix2 q h)) (fun h => x8 (ix2 q h)) (fun h => x1 (ix2 q h))
      (x7 (ix2 0 q)) (x9 (ix2 0 q)))

/-- y of the block at (batch row r, unit q): the p linear (x10, x11) plus new_hidden. -/
def blockYAt (r : Fin 2048) (q : Fin 256) : EReal :=
  lin (fun h => x0 (ix2 r h)) (fun h => x10 (ix2 q h)) (fun h => x1 (ix2 q h)) (x11 (ix2 0 q))
    + blockNHAt x0 x1 x2 x3 x4 x5 x6 x7 x8 x9 r q

/-- new_hidden of the block as an array over (batch row, unit). -/
def blockNH : S2048x256.Idx → EReal := fun y => blockNHAt x0 x1 x2 x3 x4 x5 x6 x7 x8 x9 (y 0) (y 1)

/-- y of the block as an array over (batch row, unit). -/
def blockY : S2048x256.Idx → EReal := fun y => blockYAt x0 x1 x2 x3 x4 x5 x6 x7 x8 x9 x10 x11 (y 0) (y 1)

end Block

end Cert.KernelIdeal.Body

end
-- ==== Proof.Pieces.lean ====
/-
  What one grid point's body leaves in its two output blocks, as one function of (batch row, unit).

  The body fills each 2048 x 256 output block in eight stores of 256 rows, one per slice of the batch: the store of
  slice k covers rows 256 k … 256 k + 255 and all 256 units, and its value at (row p of the slice, unit q) depends on
  row 256 k + p of the input block and on row q of the mask and weight blocks and entry q of the bias blocks — never on
  k otherwise. So every store is the restriction, to its own rows, of ONE function of (batch row r, unit q): the block
  function of the body's arithmetic (`blockY` for y, `blockNH` for new_hidden) at r = 256 k + p. The eight stores tile
  the block, so what the block holds afterwards is that function everywhere, whatever it held before.
-/
import proofs.«105864_j35175782154587_2_alg».proof.Proof.Gen.KernelIdeal.Frame
import proofs.«105864_j35175782154587_2_alg».proof.Proof.BodyAt
import Idealize.ShloMosaic.Lib.Pipeline.Value
import Idealize.ShloMosaic.Lib.ValueIdx

set_option maxRecDepth 16384

noncomputable section

namespace Cert.KernelIdeal.Pieces

open Cert.KernelIdeal Cert.KernelIdeal.Gen Cert.KernelIdeal.Body Cert.LiquidCell
open Idealize.ShloMosaic Idealize.ShloMosaic.ValueIdx Idealize.ShloMosaic.TcCoe Idealize.ShloMosaic.Tactic Idealize.SL.Sem

theorem zeros2 : (![0, 0] : Fin 2 → Nat) = fun _ => 0 := funext fun a => by fin_cases a <;> rfl

/-- The loop makes at most eight trips. -/
theorem trip_lt (k : Fin k0_t1_loop.trips) : k.val < 8 := Nat.lt_of_lt_of_le k.isLt k0_t1_abs.2.1

/-- Row p of slice k is batch row 256 k + p. -/
def rowOf (k : Fin k0_t1_loop.trips) (p : Fin 256) : Fin 2048 :=
  ⟨256 * k.val + p.val, by have := trip_lt k; have := p.isLt; omega⟩

/-- The slice of the input block that trip k loads: 256 rows from row 256 k on, all 2560 entries. -/
def slice (x0 : Vec Ideal S2048x2560 .bf16) (k : Fin k0_t1_loop.trips) : Vec Ideal S256x2560 .bf16 :=
  View.ld x0 (Rect.unit (s := S2048x2560) (k0_off1 k) S256x2560.size (k0_off1_inb k))

/-- The input slice that trip k loads reads, at (p, h), the input block at (256 k + p, h). -/
theorem slice_at (x0 : Vec Ideal S2048x2560 .bf16) (k : Fin k0_t1_loop.trips) (p : Fin 256) (h : Fin 2560) :
    slice x0 k (ix2 p h) = x0 (ix2 (rowOf k p) h) := by
  show x0 ((Rect.unit (s := S2048x2560) (k0_off1 k) S256x2560.size (k0_off1_inb k)).emb (ix2 p h)) = _
  refine congrArg x0 (funext fun a => Fin.ext ?_)
  match a with
  | ⟨0, _⟩ =>
    show k0_off1 k 0 + 1 * p.val = 256 * k.val + p.val
    rw [k0_off1_eq]; show 256 * k.val + 1 * p.val = _; omega
  | ⟨1, _⟩ =>
    show k0_off1 k 1 + 1 * h.val = h.val
    rw [k0_off1_eq]; show 0 + 1 * h.val = _; omega

/-- Where trip k's store puts its entry (p, q): at (256 k + p, q) of the output block. -/
theorem store_at (k : Fin k0_t1_loop.trips) (p q : Fin 256) :
    (Rect.unit (s := S2048x256) (k0_off2 k) S256x256.size (k0_off2_inb k)).emb (ix2 p q) = ix2 (rowOf k p) q := by
  refine funext fun a => Fin.ext ?_
  match a with
  | ⟨0, _⟩ =>
    show k0_off2 k 0 + 1 * p.val = 256 * k.val + p.val
    rw [k0_off2_eq]; show 256 * k.val + 1 * p.val = _; omega
  | ⟨1, _⟩ =>
    show k0_off2 k 1 + 1 * q.val = q.val
    rw [k0_off2_eq]; show 0 + 1 * q.val = _; omega

section Trip

variable (x0 : Vec Ideal S2048x2560 .bf16) (x2 : Vec Ideal S256x2560 .bf16) (x3 : Vec Ideal S1x256 .f32) (x4 : Vec Ideal S256x2560 .bf16) (x5 : Vec Ideal S1x256 .f32) (x6 : Vec Ideal S256x2560 .bf16) (x7 : Vec Ideal S1x256 .f32) (x8 : Vec Ideal S256x2560 .bf16) (x9 : Vec Ideal S1x256 .f32) (x10 : Vec Ideal S256x2560 .bf16) (x11 : Vec Ideal S1x256 .f32) (mk : Vec Ideal S256x2560 .bf16)

/-- What trip k stores into the new_hidden block. -/
def tripNH (k : Fin k0_t1_loop.trips) : FVec Ideal S256x256 .f32 :=
  k0_pay2 (k0_pay5 (k0_pay1 mk) (slice x0 k) x2 x3) (k0_pay6 (k0_pay1 mk) (slice x0 k) x4 x5)
    (k0_pay7 (k0_pay1 mk) (slice x0 k) x6 x8 x7 x9)

/-- What trip k stores into the y block. -/
def tripY (k : Fin k0_t1_loop.trips) : FVec Ideal S256x256 .f32 :=
  k0_pay3 mk (k0_pay4 (slice x0 k)) (k0_pay5 (k0_pay1 mk) (slice x0 k) x2 x3) (k0_pay6 (k0_pay1 mk) (slice x0 k) x4 x5)
    (k0_pay7 (k0_pay1 mk) (slice x0 k) x6 x8 x7 x9) x10 x11

/-- The mask block passes through its identity cast. -/
theorem pay1_eq : k0_pay1 mk = mk := by unfold k0_pay1; exact shapeCast_self _ _

/-- Trip k's new_hidden store at (p, q) is the block function at (256 k + p, q). -/
theorem tripNH_at (k : Fin k0_t1_loop.trips) (p q : Fin 256) :
    tripNH x0 x2 x3 x4 x5 x6 x7 x8 x9 mk k (ix2 p q) = blockNHAt x0 mk x2 x3 x4 x5 x6 x7 x8 x9 (rowOf k p) q := by
  unfold tripNH blockNHAt
  rw [pay2_at, pay5_at, pay6_at, pay7_at, pay1_eq]
  simp only [slice_at]

/-- Trip k's y store at (p, q) is the block function at (256 k + p, q). -/
theorem tripY_at (k : Fin k0_t1_loop.trips) (p q : Fin 256) :
    tripY x0 x2 x3 x4 x5 x6 x7 x8 x9 x10 x11 mk k (ix2 p q) = blockYAt x0 mk x2 x3 x4 x5 x6 x7 x8 x9 x10 x11 (rowOf k p) q := by
  unfold tripY blockYAt blockNHAt
  rw [pay3_at, pay5_at, pay6_at, pay7_at, pay1_eq]
  have e : k0_pay4 (slice x0 k) = slice x0 k := by unfold k0_pay4; exact shapeCast_self _ _
  rw [e]
  simp only [slice_at]

end Trip

section Run

variable (𝒱 : Variants) (c : Dev nD) (bd : Option 𝒱.V) (i : grid0.Coords) (arg1 : Memref sig .tc .vmem S2048x2560 .bf16) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S1x256 .f32) (harg4 : arg4.IsWhole) (arg5 : Memref sig .tc .vmem S256x2560 .bf16) (harg5 : arg5.IsWhole) (arg6 : Memref sig .tc .vmem S1x256 .f32) (harg6 : arg6.IsWhole) (arg7 : Memref sig .tc .vmem S256x2560 .bf16) (harg7 : arg7.IsWhole) (arg8 : Memref sig .tc .vmem S1x256 .f32) (harg8 : arg8.IsWhole) (arg9 : Memref sig .tc .vmem S256x2560 .bf16) (harg9 : arg9.IsWhole) (arg10 : Memref sig .tc .vmem S1x256 .f32) (harg10 : arg10.IsWhole) (arg11 : Memref sig .tc .vmem S256x2560 .bf16) (harg11 : arg11.IsWhole) (arg12 : Memref sig .tc .vmem S1x256 .f32) (harg12 : arg12.IsWhole) (arg13 : Memref sig .tc .vmem S2048x256 .f32) (harg13 : arg13.IsWhole) (arg14 : Memref sig .tc .vmem S2048x256 .f32) (harg14 : arg14.IsWhole)
  (x0 : Vec Ideal S2048x2560 .bf16) (x2 : Vec Ideal S256x2560 .bf16) (x3 : Vec Ideal S1x256 .f32) (x4 : Vec Ideal S256x2560 .bf16) (x5 : Vec Ideal S1x256 .f32) (x6 : Vec Ideal S256x2560 .bf16) (x7 : Vec Ideal S1x256 .f32) (x8 : Vec Ideal S256x2560 .bf16) (x9 : Vec Ideal S1x256 .f32) (x10 : Vec Ideal S256x2560 .bf16) (x11 : Vec Ideal S1x256 .f32) (mk : Vec Ideal S256x2560 .bf16)

/-- Trip k makes ONE store into the y block: its rows, all units, the trip's y value. -/
theorem tripY_list (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 mk (harg1.unread x0) (harg3.unread x2) (harg4.unread x3) (harg5.unread x4) (harg6.unread x5) (harg7.unread x6) (harg8.unread x7) (harg9.unread x8) (harg10.unread x9) (harg11.unread x10) (harg12.unread x11) k).1
      = [⟨Rect.unit (s := S2048x256) (k0_off2 k) S256x256.size (k0_off2_inb k), tripY x0 x2 x3 x4 x5 x6 x7 x8 x9 x10 x11 mk k⟩] := by
  unfold trip_k0_t1
  dsimp only
  sl_unfold_words
  simp only [View.readAt_eq_ld, Memref.IsWhole.read_unread, View.ld_unit_zero (S := S256x2560) zeros2,
    View.ld_unit_zero (S := S1x256) zeros2]
  rfl

/-- Trip k makes ONE store into the new_hidden block: its rows, all units, the trip's new_hidden value. -/
theorem tripNH_list (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 mk (harg1.unread x0) (harg3.unread x2) (harg4.unread x3) (harg5.unread x4) (harg6.unread x5) (harg7.unread x6) (harg8.unread x7) (harg9.unread x8) (harg10.unread x9) (harg11.unread x10) (harg12.unread x11) k).2.1
      = [⟨Rect.unit (s := S2048x256) (k0_off2 k) S256x256.size (k0_off2_inb k), tripNH x0 x2 x3 x4 x5 x6 x7 x8 x9 mk k⟩] := by
  unfold trip_k0_t1
  dsimp only
  sl_unfold_words
  simp only [View.readAt_eq_ld, Memref.IsWhole.read_unread, View.ld_unit_zero (S := S256x2560) zeros2,
    View.ld_unit_zero (S := S1x256) zeros2]
  rfl

/-- Every store of trip k into the y block is the block function restricted to the store's rows. -/
theorem tripY_pieces (k : Fin k0_t1_loop.trips) :
    ∀ pc ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 mk (harg1.unread x0) (harg3.unread x2) (harg4.unread x3) (harg5.unread x4) (harg6.unread x5) (harg7.unread x6) (harg8.unread x7) (harg9.unread x8) (harg10.unread x9) (harg11.unread x10) (harg12.unread x11) k).1, ∀ x : pc.1.shape.Idx, pc.2 x = blockY x0 mk x2 x3 x4 x5 x6 x7 x8 x9 x10 x11 (pc.1.emb x) := by
  intro pc hpc
  rw [tripY_list] at hpc
  obtain rfl := List.mem_singleton.mp hpc
  intro x
  obtain ⟨p, q, rfl⟩ : ∃ (p q : Fin 256), x = ix2 p q := ⟨x 0, x 1, eq_ix2 x⟩
  show tripY x0 x2 x3 x4 x5 x6 x7 x8 x9 x10 x11 mk k (ix2 p q)
    = blockY x0 mk x2 x3 x4 x5 x6 x7 x8 x9 x10 x11 ((Rect.unit (s := S2048x256) (k0_off2 k) S256x256.size (k0_off2_inb k)).emb (ix2 p q))
  rw [store_at, tripY_at]
  rfl

/-- Every store of trip k into the new_hidden block is the block function restricted to the store's rows. -/
theorem tripNH_pieces (k : Fin k0_t1_loop.trips) :
    ∀ pc ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 mk (harg1.unread x0) (harg3.unread x2) (harg4.unread x3) (harg5.unread x4) (harg6.unread x5) (harg7.unread x6) (harg8.unread x7) (harg9.unread x8) (harg10.unread x9) (harg11.unread x10) (harg12.unread x11) k).2.1, ∀ x : pc.1.shape.Idx, pc.2 x = blockNH x0 mk x2 x3 x4 x5 x6 x7 x8 x9 (pc.1.emb x) := by
  intro pc hpc
  rw [tripNH_list] at hpc
  obtain rfl := List.mem_singleton.mp hpc
  intro x
  obtain ⟨p, q, rfl⟩ : ∃ (p q : Fin 256), x = ix2 p q := ⟨x 0, x 1, eq_ix2 x⟩
  show tripNH x0 x2 x3 x4 x5 x6 x7 x8 x9 mk k (ix2 p q)
    = blockNH x0 mk x2 x3 x4 x5 x6 x7 x8 x9 ((Rect.unit (s := S2048x256) (k0_off2 k) S256x256.size (k0_off2_inb k)).emb (ix2 p q))
  rw [store_at, tripNH_at]
  rfl

/-- So are all the stores of the trips before n, by induction on n: the stores of n + 1 trips are trip n's in front of
    those of the first n. -/
theorem stores_before (n : Nat) (hn : n ≤ k0_t1_loop.trips) :
    (∀ pc ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 mk (harg1.unread x0) (harg3.unread x2) (harg4.unread x3) (harg5.unread x4) (harg6.unread x5) (harg7.unread x6) (harg8.unread x7) (harg9.unread x8) (harg10.unread x9) (harg11.unread x10) (harg12.unread x11) n).1, ∀ x : pc.1.shape.Idx, pc.2 x = blockY x0 mk x2 x3 x4 x5 x6 x7 x8 x9 x10 x11 (pc.1.emb x))
    ∧ (∀ pc ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 mk (harg1.unread x0) (harg3.unread x2) (harg4.unread x3) (harg5.unread x4) (harg6.unread x5) (harg7.unread x6) (harg8.unread x7) (harg9.unread x8) (harg10.unread x9) (harg11.unread x10) (harg12.unread x11) n).2, ∀ x : pc.1.shape.Idx, pc.2 x = blockNH x0 mk x2 x3 x4 x5 x6 x7 x8 x9 (pc.1.emb x)) := by
  induction n with
  | zero => exact ⟨fun pc h => absurd h List.not_mem_nil, fun pc h => absurd h List.not_mem_nil⟩
  | succ n ih =>
    have hlt : n < k0_t1_loop.trips := hn
    obtain ⟨ih1, ih2⟩ := ih (Nat.le_of_lt hlt)
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 mk (harg1.unread x0) (harg3.unread x2) (harg4.unread x3) (harg5.unread x4) (harg6.unread x5) (harg7.unread x6) (harg8.unread x7) (harg9.unread x8) (harg10.unread x9) (harg11.unread x10) (harg12.unread x11) ⟨n, hlt⟩
    rw [show n + 1 = (⟨n, hlt⟩ : Fin k0_t1_loop.trips).val + 1 from rfl, hs]
    refine ⟨fun pc h => ?_, fun pc h => ?_⟩
    · rcases List.mem_append.mp h with h | h
      · exact tripY_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 x8 x9 x10 x11 mk ⟨n, hlt⟩ pc h
      · exact ih1 pc h
    · rcases List.mem_append.mp h with h | h
      · exact tripNH_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 x8 x9 x10 x11 mk ⟨n, hlt⟩ pc h
      · exact ih2 pc h

end Run

/-! ## The two output blocks after the body -/

section Outputs

variable (c : Dev nD) (i : grid0.Coords) (arg1 : Memref sig .tc .vmem S2048x2560 .bf16) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S1x256 .f32) (harg4 : arg4.IsWhole) (arg5 : Memref sig .tc .vmem S256x2560 .bf16) (harg5 : arg5.IsWhole) (arg6 : Memref sig .tc .vmem S1x256 .f32) (harg6 : arg6.IsWhole) (arg7 : Memref sig .tc .vmem S256x2560 .bf16) (harg7 : arg7.IsWhole) (arg8 : Memref sig .tc .vmem S1x256 .f32) (harg8 : arg8.IsWhole) (arg9 : Memref sig .tc .vmem S256x2560 .bf16) (harg9 : arg9.IsWhole) (arg10 : Memref sig .tc .vmem S1x256 .f32) (harg10 : arg10.IsWhole) (arg11 : Memref sig .tc .vmem S256x2560 .bf16) (harg11 : arg11.IsWhole) (arg12 : Memref sig .tc .vmem S1x256 .f32) (harg12 : arg12.IsWhole) (arg13 : Memref sig .tc .vmem S2048x256 .f32) (harg13 : arg13.IsWhole) (arg14 : Memref sig .tc .vmem S2048x256 .f32) (harg14 : arg14.IsWhole)
  (x0 : Vec Ideal S2048x2560 .bf16) (x1 : Vec Ideal S256x2560 .bf16) (x2 : Vec Ideal S256x2560 .bf16) (x3 : Vec Ideal S1x256 .f32) (x4 : Vec Ideal S256x2560 .bf16) (x5 : Vec Ideal S1x256 .f32) (x6 : Vec Ideal S256x2560 .bf16) (x7 : Vec Ideal S1x256 .f32) (x8 : Vec Ideal S256x2560 .bf16) (x9 : Vec Ideal S1x256 .f32) (x10 : Vec Ideal S256x2560 .bf16) (x11 : Vec Ideal S1x256 .f32)

/-- The mask block as the body loads it, once, before the loop: the whole block. -/
theorem maskLoad_eq :
    View.readAt (Elt Ideal) arg2.view (Rect.unit (s := S256x2560) ![0, 0] S256x2560.size inb_S256x2560_S256x2560_0_0).toLoadRect
      (harg2.unread x1) = x1 := by
  rw [View.readAt_eq_ld, Memref.IsWhole.read_unread]
  exact View.ld_unit_zero (S := S256x2560) zeros2 _ x1

/-- After the body the y block holds the block function of the point's input blocks, at every (batch row, unit). -/
theorem out12_eq :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = blockY x0 x1 x2 x3 x4 x5 x6 x7 x8 x9 x10 x11 := by
  funext y
  unfold out0_A_12
  refine (View.read_writes_apply_of_pieces (v := VO0_12) (f := VO0_12.junk) (blockY x0 x1 x2 x3 x4 x5 x6 x7 x8 x9 x10 x11) _ ?_ y
    (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y))
  unfold kernelRun0_A
  dsimp only
  rw [maskLoad_eq]
  exact (stores_before Variants.none c none i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 x8 x9 x10 x11 x1 _ (Nat.le_refl _)).1

/-- After the body the new_hidden block holds its block function, at every (batch row, unit). -/
theorem out13_eq :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = blockNH x0 x1 x2 x3 x4 x5 x6 x7 x8 x9 := by
  funext y
  unfold out0_A_13
  refine (View.read_writes_apply_of_pieces (v := VO0_13) (f := VO0_13.junk) (blockNH x0 x1 x2 x3 x4 x5 x6 x7 x8 x9) _ ?_ y
    (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y))
  unfold kernelRun0_A
  dsimp only
  rw [maskLoad_eq]
  exact (stores_before Variants.none c none i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 x8 x9 x10 x11 x1 _ (Nat.le_refl _)).2

end Outputs

end Cert.KernelIdeal.Pieces

end
-- ==== Proof.HostSide.lean ====
/-
  What the region finds in each array it reads, in terms of the program's arguments.

  Before the region the host joins x and hidden along the second axis into the shared input (2048 x 2560), changes the
  float format of that input, of the mask and of the five weight matrices, and recasts each bias from 2048 entries to
  one row of 2048. On the extended reals a change of float format is the identity and a recast only renames the index,
  so at an index each of these arrays reads an argument: the shared input at (r, h) is x at (r, h) for h < 512 and hidden
  at (r, h − 512) otherwise (the specification's `joined`), a weight or the mask at (o, h) is the argument at (o, h), a
  bias row at (0, o) is the argument at o.
-/
import proofs.«105864_j35175782154587_2_alg».proof.Proof.Gen.KernelIdeal.Frame
import proofs.«105864_j35175782154587_2_alg».proof.Proof.CellSpec
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Cert.LiquidCell
open Idealize.ShloMosaic Idealize.ShloMosaic.ValueIdx Idealize.ShloMosaic.TcCoe Idealize.SL.Sem Idealize.ShloMosaic.StableHlo

variable (m : (ℓ : Loc nD τ sig) → Buf (Elt Ideal) ℓ)

/-- The shared input as the region finds it: x and hidden joined along the second axis, its format changed. -/
theorem input_eq (c : Dev nD) :
    (V m c main_v1 : S2048x2560.Idx → EReal)
      = truncf (F := Ideal) .bf16 (concatenate S2048x2560 1 [⟨S2048x512, (m ((c : Thread nD τ).loc main_arg0))⟩, ⟨S2048x2048, (m ((c : Thread nD τ).loc main_arg1))⟩]
          concatenates_S2048x512_S2048x2048_S2048x2560_d1) bitsLt_bf16_f32 := by
  dsimp only [Gen.V, Gen.hostOps0]; after_results

/-- The shared input at (r, h): x's row r for the first 512 entries, hidden's row r after them. -/
theorem input_at (c : Dev nD) (r : Fin 2048) (h : Fin 2560) :
    (V m c main_v1 : S2048x2560.Idx → EReal) (ix2 r h) = joined (m ((c : Thread nD τ).loc main_arg0)) (m ((c : Thread nD τ).loc main_arg1)) r h := by
  rw [input_eq]
  show concatenate S2048x2560 1 [⟨S2048x512, (m ((c : Thread nD τ).loc main_arg0))⟩, ⟨S2048x2048, (m ((c : Thread nD τ).loc main_arg1))⟩]
      concatenates_S2048x512_S2048x2048_S2048x2560_d1 (ix2 r h) = joined (m ((c : Thread nD τ).loc main_arg0)) (m ((c : Thread nD τ).loc main_arg1)) r h
  unfold joined
  split
  · next hh =>
    exact concatenate_pair_apply_left (1 : Fin 2) (m ((c : Thread nD τ).loc main_arg0)) (m ((c : Thread nD τ).loc main_arg1)) concatenates_S2048x512_S2048x2048_S2048x2560_d1
      (ix2 r h) rfl (ix2 r ⟨h.val, hh⟩) (fun b => by
        match b with
        | ⟨0, _⟩ => rfl
        | ⟨1, _⟩ => rfl)
  · next hh =>
    exact concatenate_pair_apply_right (1 : Fin 2) (m ((c : Thread nD τ).loc main_arg0)) (m ((c : Thread nD τ).loc main_arg1)) concatenates_S2048x512_S2048x2048_S2048x2560_d1
      (ix2 r h) rfl rfl (ix2 r ⟨h.val - 512, by have := h.isLt; omega⟩) (fun b hb => by
        match b, hb with
        | ⟨0, _⟩, _ => rfl
        | ⟨1, _⟩, hb => exact absurd rfl hb)
      (by show (h.val - 512) + 512 = h.val; omega)

/-- The mask as the region finds them: the argument, its format changed. -/
theorem mask_eq (c : Dev nD) :
    (V m c main_v2 : S2048x2560.Idx → EReal) = truncf (F := Ideal) .bf16 (m ((c : Thread nD τ).loc main_arg2)) bitsLt_bf16_f32 := by
  dsimp only [Gen.V, Gen.hostOps0]; after_results

/-- … so at (o, h) the argument's entry (o, h). -/
theorem mask_at (c : Dev nD) (o : Fin 2048) (h : Fin 2560) :
    (V m c main_v2 : S2048x2560.Idx → EReal) (ix2 o h) = (m ((c : Thread nD τ).loc main_arg2)) (ix2 o h) := by
  rw [mask_eq]; rfl

/-- The g weights as the region finds them: the argument, its format changed. -/
theorem wg_eq (c : Dev nD) :
    (V m c main_v3 : S2048x2560.Idx → EReal) = truncf (F := Ideal) .bf16 (m ((c : Thread nD τ).loc main_arg3)) bitsLt_bf16_f32 := by
  dsimp only [Gen.V, Gen.hostOps0]; after_results

/-- … so at (o, h) the argument's entry (o, h). -/
theorem wg_at (c : Dev nD) (o : Fin 2048) (h : Fin 2560) :
    (V m c main_v3 : S2048x2560.Idx → EReal) (ix2 o h) = (m ((c : Thread nD τ).loc main_arg3)) (ix2 o h) := by
  rw [wg_eq]; rfl

/-- The h weights as the region finds them: the argument, its format changed. -/
theorem wh_eq (c : Dev nD) :
    (V m c main_v4 : S2048x2560.Idx → EReal) = truncf (F := Ideal) .bf16 (m ((c : Thread nD τ).loc main_arg5)) bitsLt_bf16_f32 := by
  dsimp only [Gen.V, Gen.hostOps0]; after_results

/-- … so at (o, h) the argument's entry (o, h). -/
theorem wh_at (c : Dev nD) (o : Fin 2048) (h : Fin 2560) :
    (V m c main_v4 : S2048x2560.Idx → EReal) (ix2 o h) = (m ((c : Thread nD τ).loc main_arg5)) (ix2 o h) := by
  rw [wh_eq]; rfl

/-- The fg weights as the region finds them: the argument, its format changed. -/
theorem wfg_eq (c : Dev nD) :
    (V m c main_v5 : S2048x2560.Idx → EReal) = truncf (F := Ideal) .bf16 (m ((c : Thread nD τ).loc main_arg7)) bitsLt_bf16_f32 := by
  dsimp only [Gen.V, Gen.hostOps0]; after_results

/-- … so at (o, h) the argument's entry (o, h). -/
theorem wfg_at (c : Dev nD) (o : Fin 2048) (h : Fin 2560) :
    (V m c main_v5 : S2048x2560.Idx → EReal) (ix2 o h) = (m ((c : Thread nD τ).loc main_arg7)) (ix2 o h) := by
  rw [wfg_eq]; rfl

/-- The fh weights as the region finds them: the argument, its format changed. -/
theorem wfh_eq (c : Dev nD) :
    (V m c main_v6 : S2048x2560.Idx → EReal) = truncf (F := Ideal) .bf16 (m ((c : Thread nD τ).loc main_arg9)) bitsLt_bf16_f32 := by
  dsimp only [Gen.V, Gen.hostOps0]; after_results

/-- … so at (o, h) the argument's entry (o, h). -/
theorem wfh_at (c : Dev nD) (o : Fin 2048) (h : Fin 2560) :
    (V m c main_v6 : S2048x2560.Idx → EReal) (ix2 o h) = (m ((c : Thread nD τ).loc main_arg9)) (ix2 o h) := by
  rw [wfh_eq]; rfl

/-- The p weights as the region finds them: the argument, its format changed. -/
theorem wp_eq (c : Dev nD) :
    (V m c main_v7 : S2048x2560.Idx → EReal) = truncf (F := Ideal) .bf16 (m ((c : Thread nD τ).loc main_arg11)) bitsLt_bf16_f32 := by
  dsimp only [Gen.V, Gen.hostOps0]; after_results

/-- … so at (o, h) the argument's entry (o, h). -/
theorem wp_at (c : Dev nD) (o : Fin 2048) (h : Fin 2560) :
    (V m c main_v7 : S2048x2560.Idx → EReal) (ix2 o h) = (m ((c : Thread nD τ).loc main_arg11)) (ix2 o h) := by
  rw [wp_eq]; rfl

/-- A vector of 2048 entries recast to one row of 2048 reads, at (0, o), the vector's entry o. -/
theorem rowOfVector_at (v : S2048.Idx → EReal) (o : Fin 2048) :
    shapeCast S1x2048 v shapeCasts_S2048_S1x2048 (ix2 0 o) = v (ix1 o) :=
  shapeCast_apply v shapeCasts_S2048_S1x2048 (ix2 0 o) (ix1 o) (by
    rw [Shape.rowMajor_val_one, Shape.rowMajor_val_two]
    show o.val = 0 * 2048 + o.val
    omega)

/-- The g bias as the region finds it: the argument recast to one row. -/
theorem bg_eq (c : Dev nD) :
    (V m c main_v8 : S1x2048.Idx → EReal) = shapeCast S1x2048 (m ((c : Thread nD τ).loc main_arg4)) shapeCasts_S2048_S1x2048 := by
  dsimp only [Gen.V, Gen.hostOps0]; after_results; rfl

/-- … so at (0, o) the argument's entry o. -/
theorem bg_at (c : Dev nD) (o : Fin 2048) :
    (V m c main_v8 : S1x2048.Idx → EReal) (ix2 0 o) = (m ((c : Thread nD τ).loc main_arg4)) (ix1 o) := by
  rw [bg_eq]; exact rowOfVector_at _ o

/-- The h bias as the region finds it: the argument recast to one row. -/
theorem bh_eq (c : Dev nD) :
    (V m c main_v9 : S1x2048.Idx → EReal) = shapeCast S1x2048 (m ((c : Thread nD τ).loc main_arg6)) shapeCasts_S2048_S1x2048 := by
  dsimp only [Gen.V, Gen.hostOps0]; after_results; rfl

/-- … so at (0, o) the argument's entry o. -/
theorem bh_at (c : Dev nD) (o : Fin 2048) :
    (V m c main_v9 : S1x2048.Idx → EReal) (ix2 0 o) = (m ((c : Thread nD τ).loc main_arg6)) (ix1 o) := by
  rw [bh_eq]; exact rowOfVector_at _ o

/-- The fg bias as the region finds it: the argument recast to one row. -/
theorem bfg_eq (c : Dev nD) :
    (V m c main_v10 : S1x2048.Idx → EReal) = shapeCast S1x2048 (m ((c : Thread nD τ).loc main_arg8)) shapeCasts_S2048_S1x2048 := by
  dsimp only [Gen.V, Gen.hostOps0]; after_results; rfl

/-- … so at (0, o) the argument's entry o. -/
theorem bfg_at (c : Dev nD) (o : Fin 2048) :
    (V m c main_v10 : S1x2048.Idx → EReal) (ix2 0 o) = (m ((c : Thread nD τ).loc main_arg8)) (ix1 o) := by
  rw [bfg_eq]; exact rowOfVector_at _ o

/-- The fh bias as the region finds it: the argument recast to one row. -/
theorem bfh_eq (c : Dev nD) :
    (V m c main_v11 : S1x2048.Idx → EReal) = shapeCast S1x2048 (m ((c : Thread nD τ).loc main_arg10)) shapeCasts_S2048_S1x2048 := by
  dsimp only [Gen.V, Gen.hostOps0]; after_results; rfl

/-- … so at (0, o) the argument's entry o. -/
theorem bfh_at (c : Dev nD) (o : Fin 2048) :
    (V m c main_v11 : S1x2048.Idx → EReal) (ix2 0 o) = (m ((c : Thread nD τ).loc main_arg10)) (ix1 o) := by
  rw [bfh_eq]; exact rowOfVector_at _ o

/-- The p bias as the region finds it: the argument recast to one row. -/
theorem bp_eq (c : Dev nD) :
    (V m c main_v12 : S1x2048.Idx → EReal) = shapeCast S1x2048 (m ((c : Thread nD τ).loc main_arg12)) shapeCasts_S2048_S1x2048 := by
  dsimp only [Gen.V, Gen.hostOps0]; after_results; rfl

/-- … so at (0, o) the argument's entry o. -/
theorem bp_at (c : Dev nD) (o : Fin 2048) :
    (V m c main_v12 : S1x2048.Idx → EReal) (ix2 0 o) = (m ((c : Thread nD τ).loc main_arg12)) (ix1 o) := by
  rw [bp_eq]; exact rowOfVector_at _ o

end Cert.KernelIdeal.HostSide

end
-- ==== Proof.Blocks.lean ====
/-
  From the blocks each grid point writes to the two whole result arrays.

  The grid has eight points; point t owns output units 256 t … 256 t + 255. Its input blocks are: ALL of the shared input
  (every point reads the same 2048 x 2560 array), rows 256 t … of the mask and of each weight matrix, and entries 256 t …
  of each bias row; its two output blocks are columns 256 t … of the results, all 2048 batch rows. So entry (r, q) of an
  output block is entry (r, 256 t + q) of the result, row q of a weight block is row 256 t + q of the weight matrix, and
  the block function of the body's arithmetic at (r, q) is the specification at (r, 256 t + q). The eight column blocks
  tile each result array, so after the run each result array IS the specification's array.
-/
import proofs.«105864_j35175782154587_2_alg».proof.Proof.Gen.KernelIdeal.Value
import proofs.«105864_j35175782154587_2_alg».proof.Proof.Pieces
import proofs.«105864_j35175782154587_2_alg».proof.Proof.HostSide
import proofs.«105864_j35175782154587_2_alg».proof.Proof.CellSpec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Body Cert.LiquidCell
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The grid has eight points. -/
theorem point_lt (t : Fin cfg0.N) : t.val < 8 := by
  have h : cfg0.N = 8 := N_0
  have := t.isLt
  omega

/-- Unit q of point t's block is output unit 256 t + q. -/
def unitOf (t : Fin cfg0.N) (q : Fin 256) : Fin 2048 :=
  ⟨t.val * 256 + q.val, by have := point_lt t; have := q.isLt; omega⟩

/-! ## The printed index maps, decided over the eight points -/

/-- The shared input's block is the whole array at every point. -/
theorem idx_0 : ∀ t : Fin cfg0.N, win0_0.index t (0 : Fin 2) = 0 ∧ win0_0.index t (1 : Fin 2) = 0 :=
  (by decide +kernel : ∀ t : Fin grid0.N, _)
/-- Window 1 moves down the rows with the point. -/
theorem idx_1 : ∀ t : Fin cfg0.N, win0_1.index t (0 : Fin 2) = t.val ∧ win0_1.index t (1 : Fin 2) = 0 :=
  (by decide +kernel : ∀ t : Fin grid0.N, _)
/-- Window 2 moves down the rows with the point. -/
theorem idx_2 : ∀ t : Fin cfg0.N, win0_2.index t (0 : Fin 2) = t.val ∧ win0_2.index t (1 : Fin 2) = 0 :=
  (by decide +kernel : ∀ t : Fin grid0.N, _)
/-- Window 4 moves down the rows with the point. -/
theorem idx_4 : ∀ t : Fin cfg0.N, win0_4.index t (0 : Fin 2) = t.val ∧ win0_4.index t (1 : Fin 2) = 0 :=
  (by decide +kernel : ∀ t : Fin grid0.N, _)
/-- Window 6 moves down the rows with the point. -/
theorem idx_6 : ∀ t : Fin cfg0.N, win0_6.index t (0 : Fin 2) = t.val ∧ win0_6.index t (1 : Fin 2) = 0 :=
  (by decide +kernel : ∀ t : Fin grid0.N, _)
/-- Window 8 moves down the rows with the point. -/
theorem idx_8 : ∀ t : Fin cfg0.N, win0_8.index t (0 : Fin 2) = t.val ∧ win0_8.index t (1 : Fin 2) = 0 :=
  (by decide +kernel : ∀ t : Fin grid0.N, _)
/-- Window 10 moves down the rows with the point. -/
theorem idx_10 : ∀ t : Fin cfg0.N, win0_10.index t (0 : Fin 2) = t.val ∧ win0_10.index t (1 : Fin 2) = 0 :=
  (by decide +kernel : ∀ t : Fin grid0.N, _)
/-- Window 3 moves along the row's entries with the point. -/
theorem idx_3 : ∀ t : Fin cfg0.N, win0_3.index t (0 : Fin 2) = 0 ∧ win0_3.index t (1 : Fin 2) = t.val :=
  (by decide +kernel : ∀ t : Fin grid0.N, _)
/-- Window 5 moves along the row's entries with the point. -/
theorem idx_5 : ∀ t : Fin cfg0.N, win0_5.index t (0 : Fin 2) = 0 ∧ win0_5.index t (1 : Fin 2) = t.val :=
  (by decide +kernel : ∀ t : Fin grid0.N, _)
/-- Window 7 moves along the row's entries with the point. -/
theorem idx_7 : ∀ t : Fin cfg0.N, win0_7.index t (0 : Fin 2) = 0 ∧ win0_7.index t (1 : Fin 2) = t.val :=
  (by decide +kernel : ∀ t : Fin grid0.N, _)
/-- Window 9 moves along the row's entries with the point. -/
theorem idx_9 : ∀ t : Fin cfg0.N, win0_9.index t (0 : Fin 2) = 0 ∧ win0_9.index t (1 : Fin 2) = t.val :=
  (by decide +kernel : ∀ t : Fin grid0.N, _)
/-- Window 11 moves along the row's entries with the point. -/
theorem idx_11 : ∀ t : Fin cfg0.N, win0_11.index t (0 : Fin 2) = 0 ∧ win0_11.index t (1 : Fin 2) = t.val :=
  (by decide +kernel : ∀ t : Fin grid0.N, _)
/-- Output window 12 moves along the columns with the point. -/
theorem idx_12 : ∀ t : Fin cfg0.N, win0_12.index t (0 : Fin 2) = 0 ∧ win0_12.index t (1 : Fin 2) = t.val :=
  (by decide +kernel : ∀ t : Fin grid0.N, _)
/-- Output window 13 moves along the columns with the point. -/
theorem idx_13 : ∀ t : Fin cfg0.N, win0_13.index t (0 : Fin 2) = 0 ∧ win0_13.index t (1 : Fin 2) = t.val :=
  (by decide +kernel : ∀ t : Fin grid0.N, _)

/-! ## The input blocks at coordinates -/

/-- The shared input's block at (r, h) is the joined input row r at h. -/
theorem in_at (c : Dev nD) (t : Fin cfg0.N) (r : Fin 2048) (h : Fin 2560) :
    iblk m c 0 t (ix2 r h) = joined (m ((c : Thread nD τ).loc main_arg0)) (m ((c : Thread nD τ).loc main_arg1)) r h := by
  show (V m c main_v1 : S2048x2560.Idx → EReal) (((cfg0.win 0).blk t).view.emb (ix2 r h)) = _
  have e : ((cfg0.win 0).blk t).view.emb (ix2 r h) = ix2 r h := by
    funext a; apply Fin.ext
    match a with
    | ⟨0, _⟩ => show win0_0.index t (0 : Fin 2) * 2048 + 1 * r.val = r.val; rw [(idx_0 t).1]; omega
    | ⟨1, _⟩ => show win0_0.index t (1 : Fin 2) * 2560 + 1 * h.val = h.val; rw [(idx_0 t).2]; omega
  rw [e]; exact HostSide.input_at m c r h

/-- Window 1's block at (q, h) is the argument at (256 t + q, h). -/
theorem blk1_at (c : Dev nD) (t : Fin cfg0.N) (q : Fin 256) (h : Fin 2560) :
    iblk m c 1 t (ix2 q h) = (m ((c : Thread nD τ).loc main_arg2)) (ix2 (unitOf t q) h) := by
  show (V m c main_v2 : S2048x2560.Idx → EReal) (((cfg0.win 1).blk t).view.emb (ix2 q h)) = _
  have e : ((cfg0.win 1).blk t).view.emb (ix2 q h) = ix2 (unitOf t q) h := by
    funext a; apply Fin.ext
    match a with
    | ⟨0, _⟩ => show win0_1.index t (0 : Fin 2) * 256 + 1 * q.val = t.val * 256 + q.val; rw [(idx_1 t).1]; omega
    | ⟨1, _⟩ => show win0_1.index t (1 : Fin 2) * 2560 + 1 * h.val = h.val; rw [(idx_1 t).2]; omega
  rw [e]; exact HostSide.mask_at m c (unitOf t q) h

/-- Window 2's block at (q, h) is the argument at (256 t + q, h). -/
theorem blk2_at (c : Dev nD) (t : Fin cfg0.N) (q : Fin 256) (h : Fin 2560) :
    iblk m c 2 t (ix2 q h) = (m ((c : Thread nD τ).loc main_arg3)) (ix2 (unitOf t q) h) := by
  show (V m c main_v3 : S2048x2560.Idx → EReal) (((cfg0.win 2).blk t).view.emb (ix2 q h)) = _
  have e : ((cfg0.win 2).blk t).view.emb (ix2 q h) = ix2 (unitOf t q) h := by
    funext a; apply Fin.ext
    match a with
    | ⟨0, _⟩ => show win0_2.index t (0 : Fin 2) * 256 + 1 * q.val = t.val * 256 + q.val; rw [(idx_2 t).1]; omega
    | ⟨1, _⟩ => show win0_2.index t (1 : Fin 2) * 2560 + 1 * h.val = h.val; rw [(idx_2 t).2]; omega
  rw [e]; exact HostSide.wg_at m c (unitOf t q) h

/-- Window 4's block at (q, h) is the argument at (256 t + q, h). -/
theorem blk4_at (c : Dev nD) (t : Fin cfg0.N) (q : Fin 256) (h : Fin 2560) :
    iblk m c 4 t (ix2 q h) = (m ((c : Thread nD τ).loc main_arg5)) (ix2 (unitOf t q) h) := by
  show (V m c main_v4 : S2048x2560.Idx → EReal) (((cfg0.win 4).blk t).view.emb (ix2 q h)) = _
  have e : ((cfg0.win 4).blk t).view.emb (ix2 q h) = ix2 (unitOf t q) h := by
    funext a; apply Fin.ext
    match a with
    | ⟨0, _⟩ => show win0_4.index t (0 : Fin 2) * 256 + 1 * q.val = t.val * 256 + q.val; rw [(idx_4 t).1]; omega
    | ⟨1, _⟩ => show win0_4.index t (1 : Fin 2) * 2560 + 1 * h.val = h.val; rw [(idx_4 t).2]; omega
  rw [e]; exact HostSide.wh_at m c (unitOf t q) h

/-- Window 6's block at (q, h) is the argument at (256 t + q, h). -/
theorem blk6_at (c : Dev nD) (t : Fin cfg0.N) (q : Fin 256) (h : Fin 2560) :
    iblk m c 6 t (ix2 q h) = (m ((c : Thread nD τ).loc main_arg7)) (ix2 (unitOf t q) h) := by
  show (V m c main_v5 : S2048x2560.Idx → EReal) (((cfg0.win 6).blk t).view.emb (ix2 q h)) = _
  have e : ((cfg0.win 6).blk t).view.emb (ix2 q h) = ix2 (unitOf t q) h := by
    funext a; apply Fin.ext
    match a with
    | ⟨0, _⟩ => show win0_6.index t (0 : Fin 2) * 256 + 1 * q.val = t.val * 256 + q.val; rw [(idx_6 t).1]; omega
    | ⟨1, _⟩ => show win0_6.index t (1 : Fin 2) * 2560 + 1 * h.val = h.val; rw [(idx_6 t).2]; omega
  rw [e]; exact HostSide.wfg_at m c (unitOf t q) h

/-- Window 8's block at (q, h) is the argument at (256 t + q, h). -/
theorem blk8_at (c : Dev nD) (t : Fin cfg0.N) (q : Fin 256) (h : Fin 2560) :
    iblk m c 8 t (ix2 q h) = (m ((c : Thread nD τ).loc main_arg9)) (ix2 (unitOf t q) h) := by
  show (V m c main_v6 : S2048x2560.Idx → EReal) (((cfg0.win 8).blk t).view.emb (ix2 q h)) = _
  have e : ((cfg0.win 8).blk t).view.emb (ix2 q h) = ix2 (unitOf t q) h := by
    funext a; apply Fin.ext
    match a with
    | ⟨0, _⟩ => show win0_8.index t (0 : Fin 2) * 256 + 1 * q.val = t.val * 256 + q.val; rw [(idx_8 t).1]; omega
    | ⟨1, _⟩ => show win0_8.index t (1 : Fin 2) * 2560 + 1 * h.val = h.val; rw [(idx_8 t).2]; omega
  rw [e]; exact HostSide.wfh_at m c (unitOf t q) h

/-- Window 10's block at (q, h) is the argument at (256 t + q, h). -/
theorem blk10_at (c : Dev nD) (t : Fin cfg0.N) (q : Fin 256) (h : Fin 2560) :
    iblk m c 10 t (ix2 q h) = (m ((c : Thread nD τ).loc main_arg11)) (ix2 (unitOf t q) h) := by
  show (V m c main_v7 : S2048x2560.Idx → EReal) (((cfg0.win 10).blk t).view.emb (ix2 q h)) = _
  have e : ((cfg0.win 10).blk t).view.emb (ix2 q h) = ix2 (unitOf t q) h := by
    funext a; apply Fin.ext
    match a with
    | ⟨0, _⟩ => show win0_10.index t (0 : Fin 2) * 256 + 1 * q.val = t.val * 256 + q.val; rw [(idx_10 t).1]; omega
    | ⟨1, _⟩ => show win0_10.index t (1 : Fin 2) * 2560 + 1 * h.val = h.val; rw [(idx_10 t).2]; omega
  rw [e]; exact HostSide.wp_at m c (unitOf t q) h

/-- Window 3's block at (0, q) is the argument at 256 t + q. -/
theorem blk3_at (c : Dev nD) (t : Fin cfg0.N) (q : Fin 256) :
    iblk m c 3 t (ix2 0 q) = (m ((c : Thread nD τ).loc main_arg4)) (ix1 (unitOf t q)) := by
  show (V m c main_v8 : S1x2048.Idx → EReal) (((cfg0.win 3).blk t).view.emb (ix2 0 q)) = _
  have e : ((cfg0.win 3).blk t).view.emb (ix2 0 q) = ix2 0 (unitOf t q) := by
    funext a; apply Fin.ext
    match a with
    | ⟨0, _⟩ => show win0_3.index t (0 : Fin 2) * 1 + 1 * 0 = 0; rw [(idx_3 t).1]
    | ⟨1, _⟩ => show win0_3.index t (1 : Fin 2) * 256 + 1 * q.val = t.val * 256 + q.val; rw [(idx_3 t).2]; omega
  rw [e]; exact HostSide.bg_at m c (unitOf t q)

/-- Window 5's block at (0, q) is the argument at 256 t + q. -/
theorem blk5_at (c : Dev nD) (t : Fin cfg0.N) (q : Fin 256) :
    iblk m c 5 t (ix2 0 q) = (m ((c : Thread nD τ).loc main_arg6)) (ix1 (unitOf t q)) := by
  show (V m c main_v9 : S1x2048.Idx → EReal) (((cfg0.win 5).blk t).view.emb (ix2 0 q)) = _
  have e : ((cfg0.win 5).blk t).view.emb (ix2 0 q) = ix2 0 (unitOf t q) := by
    funext a; apply Fin.ext
    match a with
    | ⟨0, _⟩ => show win0_5.index t (0 : Fin 2) * 1 + 1 * 0 = 0; rw [(idx_5 t).1]
    | ⟨1, _⟩ => show win0_5.index t (1 : Fin 2) * 256 + 1 * q.val = t.val * 256 + q.val; rw [(idx_5 t).2]; omega
  rw [e]; exact HostSide.bh_at m c (unitOf t q)

/-- Window 7's block at (0, q) is the argument at 256 t + q. -/
theorem blk7_at (c : Dev nD) (t : Fin cfg0.N) (q : Fin 256) :
    iblk m c 7 t (ix2 0 q) = (m ((c : Thread nD τ).loc main_arg8)) (ix1 (unitOf t q)) := by
  show (V m c main_v10 : S1x2048.Idx → EReal) (((cfg0.win 7).blk t).view.emb (ix2 0 q)) = _
  have e : ((cfg0.win 7).blk t).view.emb (ix2 0 q) = ix2 0 (unitOf t q) := by
    funext a; apply Fin.ext
    match a with
    | ⟨0, _⟩ => show win0_7.index t (0 : Fin 2) * 1 + 1 * 0 = 0; rw [(idx_7 t).1]
    | ⟨1, _⟩ => show win0_7.index t (1 : Fin 2) * 256 + 1 * q.val = t.val * 256 + q.val; rw [(idx_7 t).2]; omega
  rw [e]; exact HostSide.bfg_at m c (unitOf t q)

/-- Window 9's block at (0, q) is the argument at 256 t + q. -/
theorem blk9_at (c : Dev nD) (t : Fin cfg0.N) (q : Fin 256) :
    iblk m c 9 t (ix2 0 q) = (m ((c : Thread nD τ).loc main_arg10)) (ix1 (unitOf t q)) := by
  show (V m c main_v11 : S1x2048.Idx → EReal) (((cfg0.win 9).blk t).view.emb (ix2 0 q)) = _
  have e : ((cfg0.win 9).blk t).view.emb (ix2 0 q) = ix2 0 (unitOf t q) := by
    funext a; apply Fin.ext
    match a with
    | ⟨0, _⟩ => show win0_9.index t (0 : Fin 2) * 1 + 1 * 0 = 0; rw [(idx_9 t).1]
    | ⟨1, _⟩ => show win0_9.index t (1 : Fin 2) * 256 + 1 * q.val = t.val * 256 + q.val; rw [(idx_9 t).2]; omega
  rw [e]; exact HostSide.bfh_at m c (unitOf t q)

/-- Window 11's block at (0, q) is the argument at 256 t + q. -/
theorem blk11_at (c : Dev nD) (t : Fin cfg0.N) (q : Fin 256) :
    iblk m c 11 t (ix2 0 q) = (m ((c : Thread nD τ).loc main_arg12)) (ix1 (unitOf t q)) := by
  show (V m c main_v12 : S1x2048.Idx → EReal) (((cfg0.win 11).blk t).view.emb (ix2 0 q)) = _
  have e : ((cfg0.win 11).blk t).view.emb (ix2 0 q) = ix2 0 (unitOf t q) := by
    funext a; apply Fin.ext
    match a with
    | ⟨0, _⟩ => show win0_11.index t (0 : Fin 2) * 1 + 1 * 0 = 0; rw [(idx_11 t).1]
    | ⟨1, _⟩ => show win0_11.index t (1 : Fin 2) * 256 + 1 * q.val = t.val * 256 + q.val; rw [(idx_11 t).2]; omega
  rw [e]; exact HostSide.bp_at m c (unitOf t q)

/-! ## The block function at the point's blocks is the specification -/

section AtPoint

variable (c : Dev nD) (t : Fin cfg0.N) (r : Fin 2048) (q : Fin 256)

theorem rowIn : (fun h => iblk m c 0 t (ix2 r h)) = joined (m ((c : Thread nD τ).loc main_arg0)) (m ((c : Thread nD τ).loc main_arg1)) r := funext fun h => in_at m c t r h
theorem row1 : (fun h => iblk m c 1 t (ix2 q h)) = row (m ((c : Thread nD τ).loc main_arg2)) (unitOf t q) := funext fun h => blk1_at m c t q h
theorem row2 : (fun h => iblk m c 2 t (ix2 q h)) = row (m ((c : Thread nD τ).loc main_arg3)) (unitOf t q) := funext fun h => blk2_at m c t q h
theorem row4 : (fun h => iblk m c 4 t (ix2 q h)) = row (m ((c : Thread nD τ).loc main_arg5)) (unitOf t q) := funext fun h => blk4_at m c t q h
theorem row6 : (fun h => iblk m c 6 t (ix2 q h)) = row (m ((c : Thread nD τ).loc main_arg7)) (unitOf t q) := funext fun h => blk6_at m c t q h
theorem row8 : (fun h => iblk m c 8 t (ix2 q h)) = row (m ((c : Thread nD τ).loc main_arg9)) (unitOf t q) := funext fun h => blk8_at m c t q h
theorem row10 : (fun h => iblk m c 10 t (ix2 q h)) = row (m ((c : Thread nD τ).loc main_arg11)) (unitOf t q) := funext fun h => blk10_at m c t q h

/-- new_hidden of point t's block at (r, q) is the specification's new_hidden at (r, 256 t + q). -/
theorem blockNH_spec :
    blockNHAt (iblk m c 0 t) (iblk m c 1 t) (iblk m c 2 t) (iblk m c 3 t) (iblk m c 4 t) (iblk m c 5 t) (iblk m c 6 t) (iblk m c 7 t) (iblk m c 8 t) (iblk m c 9 t) r q
      = newHiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (gateK (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) r (unitOf t q)) r (unitOf t q) := by
  unfold blockNHAt newHiddenAt gateK
  rw [rowIn m c t r, row1 m c t q, row2 m c t q, row4 m c t q, row6 m c t q, row8 m c t q,
    blk3_at, blk5_at, blk7_at, blk9_at]

/-- y of point t's block at (r, q) is the specification's y at (r, 256 t + q). -/
theorem blockY_spec :
    blockYAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r q
      = yPredAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12))
          (gateK (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) r (unitOf t q)) r (unitOf t q) := by
  unfold blockYAt yPredAt
  rw [blockNH_spec m c t r q, rowIn m c t r, row1 m c t q, row10 m c t q, blk11_at]

end AtPoint

/-! ## What each point writes back, the cover, the arrays -/

/-- Entry (r, q) of point t's block of result y is entry (r, 256 t + q) of the array. -/
theorem emb12 (t : Fin cfg0.N) (r : Fin 2048) (q : Fin 256) :
    ((cfg0.win 12).blk t).view.emb (ix2 r q) = ix2 r (unitOf t q) := by
  funext a; apply Fin.ext
  match a with
  | ⟨0, _⟩ => show win0_12.index t (0 : Fin 2) * 2048 + 1 * r.val = r.val; rw [(idx_12 t).1]; omega
  | ⟨1, _⟩ => show win0_12.index t (1 : Fin 2) * 256 + 1 * q.val = t.val * 256 + q.val; rw [(idx_12 t).2]; omega

/-- WHAT POINT t WRITES BACK is block t of the specification's array. -/
theorem flushed12_eq (c : Dev nD) (t : Fin cfg0.N) :
    (dats m 0 c).flushed 12 t = ((cfg0.win 12).blk t).view.read (Elt Ideal) (yPredK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [Value.flushed12_A, Pieces.out12_eq]
  funext j
  obtain ⟨r, q, rfl⟩ : ∃ (r : Fin 2048) (q : Fin 256), j = ix2 r q := ⟨j 0, j 1, eq_ix2 j⟩
  show blockYAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r q
    = yPredK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (((cfg0.win 12).blk t).view.emb (ix2 r q))
  rw [emb12, blockY_spec m c t r q]
  rfl

/-- An index of the array is in point t's block iff each coordinate is in the block's range on its axis. -/
theorem mem_blk12 (t : Fin cfg0.N) (i : S2048x2048.Idx) :
    i ∈ ((cfg0.win 12).blk t).view.set ↔ ∀ a : Fin 2, win0_12.index t a * S2048x256.size a ≤ (i a).val ∧ (i a).val < win0_12.index t a * S2048x256.size a + S2048x256.size a := by
  show i ∈ ((View.whole main_v13_0).slice (win0_12.rect t)).set ↔ _
  rw [View.set_slice_whole, Rect.mem_set_unit]
  exact Iff.rfl

/-- Every entry of the array lies in the block of the point that owns its column: column o belongs to point o / 256. -/
theorem cover12 (i : S2048x2048.Idx) :
    ∃ t : Fin cfg0.N, (cfg0.win 12).flush t = true ∧ i ∈ ((cfg0.win 12).blk t).view.set := by
  have hi0 : (i 0).val < 2048 := (i 0).isLt
  have hi1 : (i 1).val < 2048 := (i 1).isLt
  have hN : grid0.N = 8 := N_0
  let t : Fin cfg0.N := ⟨(i 1).val / 256, by show (i 1).val / 256 < grid0.N; omega⟩
  refine ⟨t, flush0_12 t, ?_⟩
  rw [mem_blk12]
  intro a
  have ht : t.val = (i 1).val / 256 := rfl
  match a with
  | ⟨0, _⟩ => show win0_12.index t (0 : Fin 2) * 2048 ≤ (i 0).val ∧ (i 0).val < win0_12.index t (0 : Fin 2) * 2048 + 2048; rw [(idx_12 t).1]; omega
  | ⟨1, _⟩ => show win0_12.index t (1 : Fin 2) * 256 ≤ (i 1).val ∧ (i 1).val < win0_12.index t (1 : Fin 2) * 256 + 256; rw [(idx_12 t).2]; omega

/-- THE ARRAY after the run is the specification's array. -/
theorem final12 (c : Dev nD) : (dats m 0 c).arrAt 12 cfg0.N = yPredK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 12 (yPredK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (fun t _ => flushed12_eq m c t) cover12

/-- Entry (r, q) of point t's block of result new_hidden is entry (r, 256 t + q) of the array. -/
theorem emb13 (t : Fin cfg0.N) (r : Fin 2048) (q : Fin 256) :
    ((cfg0.win 13).blk t).view.emb (ix2 r q) = ix2 r (unitOf t q) := by
  funext a; apply Fin.ext
  match a with
  | ⟨0, _⟩ => show win0_13.index t (0 : Fin 2) * 2048 + 1 * r.val = r.val; rw [(idx_13 t).1]; omega
  | ⟨1, _⟩ => show win0_13.index t (1 : Fin 2) * 256 + 1 * q.val = t.val * 256 + q.val; rw [(idx_13 t).2]; omega

/-- WHAT POINT t WRITES BACK is block t of the specification's array. -/
theorem flushed13_eq (c : Dev nD) (t : Fin cfg0.N) :
    (dats m 0 c).flushed 13 t = ((cfg0.win 13).blk t).view.read (Elt Ideal) (newHiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed13_A, Pieces.out13_eq]
  funext j
  obtain ⟨r, q, rfl⟩ : ∃ (r : Fin 2048) (q : Fin 256), j = ix2 r q := ⟨j 0, j 1, eq_ix2 j⟩
  show blockNHAt (iblk m c 0 t) (iblk m c 1 t) (iblk m c 2 t) (iblk m c 3 t) (iblk m c 4 t) (iblk m c 5 t) (iblk m c 6 t) (iblk m c 7 t) (iblk m c 8 t) (iblk m c 9 t) r q
    = newHiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 13).blk t).view.emb (ix2 r q))
  rw [emb13, blockNH_spec m c t r q]
  rfl

/-- An index of the array is in point t's block iff each coordinate is in the block's range on its axis. -/
theorem mem_blk13 (t : Fin cfg0.N) (i : S2048x2048.Idx) :
    i ∈ ((cfg0.win 13).blk t).view.set ↔ ∀ a : Fin 2, win0_13.index t a * S2048x256.size a ≤ (i a).val ∧ (i a).val < win0_13.index t a * S2048x256.size a + S2048x256.size a := by
  show i ∈ ((View.whole main_v13_1).slice (win0_13.rect t)).set ↔ _
  rw [View.set_slice_whole, Rect.mem_set_unit]
  exact Iff.rfl

/-- Every entry of the array lies in the block of the point that owns its column: column o belongs to point o / 256. -/
theorem cover13 (i : S2048x2048.Idx) :
    ∃ t : Fin cfg0.N, (cfg0.win 13).flush t = true ∧ i ∈ ((cfg0.win 13).blk t).view.set := by
  have hi0 : (i 0).val < 2048 := (i 0).isLt
  have hi1 : (i 1).val < 2048 := (i 1).isLt
  have hN : grid0.N = 8 := N_0
  let t : Fin cfg0.N := ⟨(i 1).val / 256, by show (i 1).val / 256 < grid0.N; omega⟩
  refine ⟨t, flush0_13 t, ?_⟩
  rw [mem_blk13]
  intro a
  have ht : t.val = (i 1).val / 256 := rfl
  match a with
  | ⟨0, _⟩ => show win0_13.index t (0 : Fin 2) * 2048 ≤ (i 0).val ∧ (i 0).val < win0_13.index t (0 : Fin 2) * 2048 + 2048; rw [(idx_13 t).1]; omega
  | ⟨1, _⟩ => show win0_13.index t (1 : Fin 2) * 256 ≤ (i 1).val ∧ (i 1).val < win0_13.index t (1 : Fin 2) * 256 + 256; rw [(idx_13 t).2]; omega

/-- THE ARRAY after the run is the specification's array. -/
theorem final13 (c : Dev nD) : (dats m 0 c).arrAt 13 cfg0.N = newHiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 13 (newHiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed13_eq m c t) cover13

/-! ## The run, read -/

/-- The kernel's run re-posted: each result array at the specification's array of the arguments, the arguments unchanged. -/
theorem run : θ_run defs (onTc (τ := τ) (main (F := Ideal))) ⟨m, fun _ => 0, ρ⟩ fun r => ∀ c : Dev nD,
      r.2.mem ((c : Thread nD τ).loc main_v13_0) = yPredK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v13_1) = newHiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final12 m c), (h c).2.1.trans (final13 m c), (h c).2.2⟩)
    (Value.run_blocks m ρ)

end Cert.KernelIdeal.Blocks

end
-- ==== Proof.lean ====
/-
  The gated cell step as a Pallas kernel equals its jnp reference on the extended reals, for finite inputs.

  Both programs compute, for batch row b and output unit o, five masked linears of the shared input row
  u = [x(b, ·) | hidden(b, ·)]:  Σ_h u h · (W(o, h) · mask(o, h)) + bias(o)  for W ∈ {Wg, Wh, Wfg, Wfh, Wp}, then

      new_hidden(b, o) = tanh g · (1 − σ(fg + fh)) + σ(fg + fh) · tanh h,      y(b, o) = p + new_hidden(b, o).

  They differ in one place. The reference forms the five linears separately (one stacked contraction) and adds fg and fh;
  the kernel adds the weight rows Wfg(o, ·) + Wfh(o, ·) and the biases first and takes ONE masked linear for the gate.
  On the extended reals (a + b) · k = a · k + b · k and the splitting of a sum fail at infinities, so the two agree
  exactly where every entry involved is a real number: this is what the precondition (every input entry finite) gives.
  Everything else is a matter of reading: a change of float format is the identity, the kernel's product contracting the
  last axis of both operands is the same sum as the reference's contraction, a product may be written in either order,
  and the reference's 1 / (1 + exp (−s)) is the one-operation sigmoid.

  The parts: the specification and the law (CellSpec); the precondition read as "every entry is real" (Finite); the
  reference's two results are the specification with the gate as two linears (RefSide); the kernel's body at an entry
  (BodyAt), its eight stores per block as one block function (Pieces), the arrays the region finds (HostSide), the blocks
  assembled into the two result arrays = the specification with the gate fused (Blocks). The three frames are the
  generated runs; the idealization rewrote nothing, so that conjunct is trivial.
-/
import proofs.«105864_j35175782154587_2_alg».proof.Defs
import proofs.«105864_j35175782154587_2_alg».proof.Proof.Gen.Kernel
import proofs.«105864_j35175782154587_2_alg».proof.Proof.Gen.Kernel.Skeleton
import proofs.«105864_j35175782154587_2_alg».proof.Proof.Gen.Kernel.Loops
import proofs.«105864_j35175782154587_2_alg».proof.Proof.Gen.Kernel.Launch
import proofs.«105864_j35175782154587_2_alg».proof.Proof.Gen.Kernel.Points
import proofs.«105864_j35175782154587_2_alg».proof.Proof.Gen.Kernel.Frame
import proofs.«105864_j35175782154587_2_alg».proof.Proof.Gen.KernelIdeal
import proofs.«105864_j35175782154587_2_alg».proof.Proof.Gen.KernelIdeal.Skeleton
import proofs.«105864_j35175782154587_2_alg».proof.Proof.Gen.KernelIdeal.Loops
import proofs.«105864_j35175782154587_2_alg».proof.Proof.Gen.KernelIdeal.Launch
import proofs.«105864_j35175782154587_2_alg».proof.Proof.Gen.KernelIdeal.Points
import proofs.«105864_j35175782154587_2_alg».proof.Proof.Gen.KernelIdeal.Frame
import proofs.«105864_j35175782154587_2_alg».proof.Proof.Gen.ReferenceIdeal
import proofs.«105864_j35175782154587_2_alg».proof.Proof.Gen.Pre_finite_inputs
import proofs.«105864_j35175782154587_2_alg».proof.Proof.Gen.KernelIdeal.Value
import proofs.«105864_j35175782154587_2_alg».proof.Proof.Gen.ReferenceIdeal.Run
import proofs.«105864_j35175782154587_2_alg».proof.Proof.Gen.ReferenceIdeal.Read
import proofs.«105864_j35175782154587_2_alg».proof.Proof.CellSpec
import proofs.«105864_j35175782154587_2_alg».proof.Proof.Finite
import proofs.«105864_j35175782154587_2_alg».proof.Proof.RefSide
import proofs.«105864_j35175782154587_2_alg».proof.Proof.Blocks
import Idealize.ShloMosaic.Adequacy
import Idealize.ShloMosaic.Init

noncomputable section

namespace Cert.Proof

open Idealize.ShloMosaic Idealize.SL.Sem Cert.LiquidCell

/-- The kernel as printed runs and leaves its arguments alone: the generated run. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments alone: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the thirteen arguments, the idealized kernel ends with the specification's two arrays (the
    gate fused) and the reference with the same arrays spelt with the gate as two linears; the arguments being finite,
    the two spellings are one array each. -/
theorem algebraic : Cert.algebraic_KernelIdeal_ReferenceIdeal := by
  intro m ρ m' ρ' hpre hagree
  refine ⟨fun c => yPredK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => newHiddenK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  obtain ⟨f0, f1, f2, -, -, -, -, f7, f8, f9, f10, -, -⟩ :=
    Cert.Finite.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (hpre c)
  refine ⟨?_, ?_, (h c).2.2⟩
  · rw [(h c).1, Cert.ReferenceIdeal.Read.val_main_v45_eq, Cert.RefSide.yPred_eq,
      a0, a1, a2, a3, a4, a5, a6, a7, a8, a9, a10, a11, a12]
    exact yPredR_eq _ _ _ _ _ _ _ _ _ _ _ _ _ f0 f1 f2 f7 f8 f9 f10
  · rw [(h c).2.1, Cert.ReferenceIdeal.Read.val_main_v44_eq, Cert.RefSide.newHidden_eq,
      a0, a1, a2, a3, a4, a5, a6, a7, a8, a9, a10]
    exact newHiddenR_eq _ _ _ _ _ _ _ _ _ _ _ f0 f1 f2 f7 f8 f9 f10

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
